-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v126)) (v1 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_v146) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S2x1280000 : Shape := ⟨2, ![2, 1280000]⟩
abbrev S128x128 : Shape := ⟨2, ![128, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S20000x128 .f32) (main_arg1 : IVec S2x640000 32) (main_arg2 : IVec S2x1280000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S20000x128 : Shape := ⟨2, ![20000, 128]⟩
abbrev S2x640000 : Shape := ⟨2, ![2, 640000]⟩
abbrev S2x1280000 : Shape := ⟨2, ![2, 1280000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S1x1280000 : Shape := ⟨2, ![1, 1280000]⟩
abbrev S1280000 : Shape := ⟨1, ![1280000]⟩
abbrev S_ : Shape := ⟨0, ![]⟩
abbrev S1x128 : Shape := ⟨2, ![1, 128]⟩
abbrev S2000x128 : Shape := ⟨2, ![2000, 128]⟩
abbrev S20000 : Shape := ⟨1, ![20000]⟩
abbrev S660000 : Shape := ⟨1, ![660000]⟩
abbrev S660000x1 : Shape := ⟨2, ![660000, 1]⟩
abbrev S660000x128 : Shape := ⟨2, ![660000, 128]⟩
abbrev S640000x1 : Shape := ⟨2, ![640000, 1]⟩
abbrev S640000x128 : Shape := ⟨2, ![640000, 128]⟩
abbrev S8000x128 : Shape := ⟨2, ![8000, 128]⟩
abbrev S1920000 : Shape := ⟨1, ![1920000]⟩
abbrev S1920000x1 : Shape := ⟨2, ![1920000, 1]⟩
abbrev S1920000x128 : Shape := ⟨2, ![1920000, 128]⟩

abbrev nBuf : Space → Nat
  | .hbm => 202
  | .vmem => 24
  | .smem => 0
  | _ => 0

abbrev hbmTy0_0 (i : Nat) : BufTy := match i % 128 with
  | 0 => ⟨S20000x128, .f32⟩
  | 1 => ⟨S2x640000, .i32⟩
  | 2 => ⟨S2x1280000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S1x640000, .i32⟩
  | 12 => ⟨S640000, .i32⟩
  | 13 => ⟨S1x640000, .i32⟩
  | 14 => ⟨S640000, .i32⟩
  | 15 => ⟨S1x1280000, .i32⟩
  | 16 => ⟨S1280000, .i32⟩
  | 17 => ⟨S1x1280000, .i32⟩
  | 18 => ⟨S1280000, .i32⟩
  | 19 => ⟨S_, .f32⟩
  | 20 => ⟨S128, .f32⟩
  | 21 => ⟨S1x128, .f32⟩
  | 22 => ⟨S20000x128, .f32⟩
  | 23 => ⟨S20000, .i32⟩
  | 24 => ⟨S660000, .i32⟩
  | 25 => ⟨S660000, .i32⟩
  | 26 => ⟨S_, .f32⟩
  | 27 => ⟨S660000, .f32⟩
  | 28 => ⟨S_, .f32⟩
  | 29 => ⟨S20000, .f32⟩
  | 30 => ⟨S660000x1, .i32⟩
  | 31 => ⟨S20000, .f32⟩
  | 32 => ⟨S_, .f32⟩
  | 33 => ⟨S20000, .f32⟩
  | 34 => ⟨S20000, .i1⟩
  | 35 => ⟨S20000, .f32⟩
  | 36 => ⟨S_, .f32⟩
  | 37 => ⟨S_, .f32⟩
  | 38 => ⟨S20000, .f32⟩
  | 39 => ⟨S20000, .f32⟩
  | 40 => ⟨S_, .i32⟩
  | 41 => ⟨S660000, .i32⟩
  | 42 => ⟨S660000, .i1⟩
  | 43 => ⟨S_, .i32⟩
  | 44 => ⟨S660000, .i32⟩
  | 45 => ⟨S660000, .i32⟩
  | 46 => ⟨S660000, .i32⟩
  | 47 => ⟨S660000x1, .i32⟩
  | 48 => ⟨S660000, .f32⟩
  | 49 => ⟨S_, .i32⟩
  | 50 => ⟨S660000, .i32⟩
  | 51 => ⟨S660000, .i1⟩
  | 52 => ⟨S_, .i32⟩
  | 53 => ⟨S660000, .i32⟩
  | 54 => ⟨S660000, .i32⟩
  | 55 => ⟨S660000, .i32⟩
  | 56 => ⟨S660000x1, .i32⟩
  | 57 => ⟨S660000, .f32⟩
  | 58 => ⟨S660000, .f32⟩
  | 59 => ⟨S_, .i32⟩
  | 60 => ⟨S660000, .i32⟩
  | 61 => ⟨S660000, .i1⟩
  | 62 => ⟨S_, .i32⟩
  | 63 => ⟨S660000, .i32⟩
  | 64 => ⟨S660000, .i32⟩
  | 65 => ⟨S660000, .i32⟩
  | 66 => ⟨S660000x1, .i32⟩
  | 67 => ⟨S660000x128, .f32⟩
  | 68 => ⟨S660000x1, .f32⟩
  | 69 => ⟨S660000x128, .f32⟩
  | 70 => ⟨S660000x128, .f32⟩
  | 71 => ⟨S_, .f32⟩
  | 72 => ⟨S20000x128, .f32⟩
  | 73 => ⟨S660000x1, .i32⟩
  | 74 => ⟨S20000x128, .f32⟩
  | 75 => ⟨S1x128, .f32⟩
  | 76 => ⟨S20000x128, .f32⟩
  | 77 => ⟨S20000x128, .f32⟩
  | 78 => ⟨S_, .f32⟩
  | 79 => ⟨S20000x128, .f32⟩
  | 80 => ⟨S20000x128, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000x128, .f32⟩
  | 90 => ⟨S_, .i32⟩
  | 91 => ⟨S640000, .i32⟩
  | 92 => ⟨S640000, .i1⟩
  | 93 => ⟨S_, .i32⟩
  | 94 => ⟨S640000, .i32⟩
  | 95 => ⟨S640000, .i32⟩
  | 96 => ⟨S640000, .i32⟩
  | 97 => ⟨S640000x1, .i32⟩
  | 98 => ⟨S640000x128, .f32⟩
  | 99 => ⟨S640000x128, .f32⟩
  | 100 => ⟨S_, .f32⟩
  | 101 => ⟨S640000x128, .f32⟩
  | 102 => ⟨S640000x128, .f32⟩
  | 103 => ⟨S_, .f32⟩
  | 104 => ⟨S128, .f32⟩
  | 105 => ⟨S1x128, .f32⟩
  | 106 => ⟨S640000x128, .f32⟩
  | 107 => ⟨S640000, .i32⟩
  | 108 => ⟨S1920000, .i32⟩
  | 109 => ⟨S1920000, .i32⟩
  | 110 => ⟨S_, .f32⟩
  | 111 => ⟨S1920000, .f32⟩
  | 112 => ⟨S_, .f32⟩
  | 113 => ⟨S640000, .f32⟩
  | 114 => ⟨S1920000x1, .i32⟩
  | 115 => ⟨S640000, .f32⟩
  | 116 => ⟨S_, .f32⟩
  | 117 => ⟨S640000, .f32⟩
  | 118 => ⟨S640000, .i1⟩
  | 119 => ⟨S640000, .f32⟩
  | 120 => ⟨S_, .f32⟩
  | 121 => ⟨S_, .f32⟩
  | 122 => ⟨S640000, .f32⟩
  | 123 => ⟨S640000, .f32⟩
  | 124 => ⟨S_, .i32⟩
  | 125 => ⟨S1920000, .i32⟩
  | 126 => ⟨S1920000, .i1⟩
  | 127 => ⟨S_, .i32⟩
  | _ => ⟨S20000x128, .f32⟩

abbrev hbmTy0_1 (i : Nat) : BufTy := match i % 128 with
  | 0 => ⟨S1920000, .i32⟩
  | 1 => ⟨S1920000, .i32⟩
  | 2 => ⟨S1920000, .i32⟩
  | 3 => ⟨S1920000x1, .i32⟩
  | 4 => ⟨S1920000, .f32⟩
  | 5 => ⟨S_, .i32⟩
  | 6 => ⟨S1920000, .i32⟩
  | 7 => ⟨S1920000, .i1⟩
  | 8 => ⟨S_, .i32⟩
  | 9 => ⟨S1920000, .i32⟩
  | 10 => ⟨S1920000, .i32⟩
  | 11 => ⟨S1920000, .i32⟩
  | 12 => ⟨S1920000x1, .i32⟩
  | 13 => ⟨S1920000, .f32⟩
  | 14 => ⟨S1920000, .f32⟩
  | 15 => ⟨S_, .i32⟩
  | 16 => ⟨S1920000, .i32⟩
  | 17 => ⟨S1920000, .i1⟩
  | 18 => ⟨S_, .i32⟩
  | 19 => ⟨S1920000, .i32⟩
  | 20 => ⟨S1920000, .i32⟩
  | 21 => ⟨S1920000, .i32⟩
  | 22 => ⟨S1920000x1, .i32⟩
  | 23 => ⟨S1920000x128, .f32⟩
  | 24 => ⟨S1920000x1, .f32⟩
  | 25 => ⟨S1920000x128, .f32⟩
  | 26 => ⟨S1920000x128, .f32⟩
  | 27 => ⟨S_, .f32⟩
  | 28 => ⟨S640000x128, .f32⟩
  | 29 => ⟨S1920000x1, .i32⟩
  | 30 => ⟨S640000x128, .f32⟩
  | 31 => ⟨S1x128, .f32⟩
  | 32 => ⟨S640000x128, .f32⟩
  | 33 => ⟨S640000x128, .f32⟩
  | 34 => ⟨S_, .f32⟩
  | 35 => ⟨S640000x128, .f32⟩
  | 36 => ⟨S640000x128, .f32⟩
  | 37 => ⟨S1x128, .f32⟩
  | 38 => ⟨S640000x128, .f32⟩
  | 39 => ⟨S_, .f32⟩
  | 40 => ⟨S20000x128, .f32⟩
  | 41 => ⟨S640000x1, .i32⟩
  | 42 => ⟨S20000x128, .f32⟩
  | 43 => ⟨S_, .f32⟩
  | 44 => ⟨S20000x128, .f32⟩
  | 45 => ⟨S640000x1, .i32⟩
  | 46 => ⟨S20000x128, .f32⟩
  | 47 => ⟨S20000x128, .f32⟩
  | 48 => ⟨S20000x128, .f32⟩
  | 49 => ⟨S1x128, .f32⟩
  | 50 => ⟨S20000x128, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S640000x128, .f32⟩
  | 69 => ⟨S640000x128, .f32⟩
  | 70 => ⟨S_, .f32⟩
  | 71 => ⟨S640000x128, .f32⟩
  | 72 => ⟨S640000x128, .f32⟩
  | 73 => ⟨S640000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S8000x128, .f32⟩
  | .local _ .vmem, ⟨7, _⟩ => ⟨S8000x128, .f32⟩
  | .local _ .vmem, ⟨8, _⟩ => ⟨S128x128, .f32⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S8000x128, .f32⟩
  | .local _ .vmem, ⟨13, _⟩ => ⟨S8000x128, .f32⟩
  | .local _ .vmem, ⟨14, _⟩ => ⟨S128x128, .f32⟩
  | .local _ .vmem, ⟨15, _⟩ => ⟨S1x128, .f32⟩
  | .local _ .vmem, ⟨16, _⟩ => ⟨S8000x128, .f32⟩
  | .local _ .vmem, ⟨17, _⟩ => ⟨S8000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_16 : Ref sig .tc := ⟨.hbm, 110, rfl⟩
abbrev main_v77 : Ref sig .tc := ⟨.hbm, 111, rfl⟩
abbrev main_cst_17 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_19 : Ref sig .tc := ⟨.hbm, 120, rfl⟩
abbrev main_call2_v0 : Ref sig .tc := ⟨.hbm, 121, rfl⟩
abbrev main_call2_v1 : Ref sig .tc := ⟨.hbm, 122, rfl⟩
abbrev main_v84 : Ref sig .tc := ⟨.hbm, 123, rfl⟩
abbrev main_c_20 : Ref sig .tc := ⟨.hbm, 124, rfl⟩
abbrev main_v85 : Ref sig .tc := ⟨.hbm, 125, rfl⟩
abbrev main_v86 : Ref sig .tc := ⟨.hbm, 126, rfl⟩
abbrev main_c_21 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_22 : Ref sig .tc := ⟨.hbm, 133, rfl⟩
abbrev main_v92 : Ref sig .tc := ⟨.hbm, 134, rfl⟩
abbrev main_v93 : Ref sig .tc := ⟨.hbm, 135, rfl⟩
abbrev main_c_23 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_24 : Ref sig .tc := ⟨.hbm, 143, rfl⟩
abbrev main_v100 : Ref sig .tc := ⟨.hbm, 144, rfl⟩
abbrev main_v101 : Ref sig .tc := ⟨.hbm, 145, rfl⟩
abbrev main_c_25 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_26 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_call3_cst : Ref sig .tc := ⟨.hbm, 162, rfl⟩
abbrev main_call3_v0 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_27 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_28 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_c_29 : Ref sig .tc := ⟨.hbm, 179, rfl⟩
abbrev main_v129 : Ref sig .tc := ⟨.hbm, 180, rfl⟩
abbrev main_v130 : Ref sig .tc := ⟨.hbm, 181, rfl⟩
abbrev main_c_30 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_c_31 : Ref sig .tc := ⟨.hbm, 188, rfl⟩
abbrev main_v136 : Ref sig .tc := ⟨.hbm, 189, rfl⟩
abbrev main_v137 : Ref sig .tc := ⟨.hbm, 190, rfl⟩
abbrev main_c_32 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst_33 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S128 : S_.BroadcastsInDim S128 (![] : Fin 0 → Fin S128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S640000_S20000_S660000_d0 : Shape.Concatenates [S640000, S20000] S660000 0
  bcast_S_S660000 : S_.BroadcastsInDim S660000 (![] : Fin 0 → Fin S660000.rank)
  bcast_S_S20000 : S_.BroadcastsInDim S20000 (![] : Fin 0 → Fin S20000.rank)
  bcast_S660000_S660000x1_0 : S660000.BroadcastsInDim S660000x1 (![0] : Fin 1 → Fin S660000x1.rank)
  bcast_S660000x1_S660000x128_0_1 : S660000x1.BroadcastsInDim S660000x128 (![0, 1] : Fin 2 → Fin S660000x128.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S1x128_S8000x128 : S1x128.Broadcasts S8000x128
  concatenates_S1280000_S640000_S1920000_d0 : Shape.Concatenates [S1280000, S640000] S1920000 0
  bcast_S_S1920000 : S_.BroadcastsInDim S1920000 (![] : Fin 0 → Fin S1920000.rank)
  bcast_S1920000_S1920000x1_0 : S1920000.BroadcastsInDim S1920000x1 (![0] : Fin 1 → Fin S1920000x1.rank)
  bcast_S1920000x1_S1920000x128_0_1 : S1920000x1.BroadcastsInDim S1920000x128 (![0, 1] : Fin 2 → Fin S1920000x128.rank)
  bcast_S1x128_S640000x128_0_1 : S1x128.BroadcastsInDim S640000x128 (![0, 1] : Fin 2 → Fin S640000x128.rank)
  shapeCasts_S2000x128_S2000x128 : S2000x128.ShapeCasts S2000x128
  dot_S2000x128_S128x128_S2000x128_1_0_0_1_n_n_wf : DotDims.WF S2000x128 S128x128 S2000x128 [1] [0] [0] [1] [] []
  scatter_S20000_S660000x1_S660000_n_0_0_1_wf : ScatterDims.WF S20000 S660000x1 S660000 [] [0] [0] 1
  gather_S20000_S660000x1_S660000_n_0_n_n_0_1_1_wf : GatherDims.WF S20000 S660000x1 S660000 [] [0] [] [0] [] 1 ![1]
  gather_S20000x128_S660000x1_S660000x128_1_0_n_n_0_1_1128_wf : GatherDims.WF S20000x128 S660000x1 S660000x128 [1] [0] [] [0] [] 1 ![1, 128]
  scatter_S20000x128_S660000x1_S660000x128_1_0_0_1_wf : ScatterDims.WF S20000x128 S660000x1 S660000x128 [1] [0] [0] 1
  gather_S20000x128_S640000x1_S640000x128_1_0_n_n_0_1_1128_wf : GatherDims.WF S20000x128 S640000x1 S640000x128 [1] [0] [] [0] [] 1 ![1, 128]
  dot_S8000x128_S128x128_S8000x128_1_0_0_1_n_n_wf : DotDims.WF S8000x128 S128x128 S8000x128 [1] [0] [0] [1] [] []
  scatter_S640000_S1920000x1_S1920000_n_0_0_1_wf : ScatterDims.WF S640000 S1920000x1 S1920000 [] [0] [0] 1
  gather_S640000_S1920000x1_S1920000_n_0_n_n_0_1_1_wf : GatherDims.WF S640000 S1920000x1 S1920000 [] [0] [] [0] [] 1 ![1]
  gather_S640000x128_S1920000x1_S1920000x128_1_0_n_n_0_1_1128_wf : GatherDims.WF S640000x128 S1920000x1 S1920000x128 [1] [0] [] [0] [] 1 ![1, 128]
  scatter_S640000x128_S1920000x1_S1920000x128_1_0_0_1_wf : ScatterDims.WF S640000x128 S1920000x1 S1920000x128 [1] [0] [0] 1
  scatter_S20000x128_S640000x1_S640000x128_1_0_0_1_wf : ScatterDims.WF S20000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S640000x128.size a
  hwx1_0 : ∀ i : grid1.Coords, EltTy.bits .f32 = 32 ∨ (Rect.block (s := S640000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S640000x128.size a
  hwx1_3 : ∀ i : grid1.Coords, EltTy.bits .f32 = 32 ∨ (Rect.block (s := S640000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S640000x128.size a
  hwx2_0 : ∀ i : grid2.Coords, EltTy.bits .f32 = 32 ∨ (Rect.block (s := S640000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S640000x128.size a
  hwx2_3 : ∀ i : grid2.Coords, EltTy.bits .f32 = 32 ∨ (Rect.block (s := S640000x128) S8000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S20000x128.size a
  hwx3_3 : ∀ i : grid3.Coords, EltTy.bits .f32 = 32 ∨ (Rect.block (s := S20000x128) S2000x128.size (cc3_transform_3 i) (hinb3_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S20000_S660000x1_S660000_n_0_0_1 : ScatterDims S20000 S660000x1 S660000 where
  updateWindowDims := []
  insertedWindowDims := [0]
  scatterDimsToOperandDims := [0]
  indexVectorDim := 1
  wf := scatter_S20000_S660000x1_S660000_n_0_0_1_wf
def gather_S20000_S660000x1_S660000_n_0_n_n_0_1_1 : GatherDims S20000 S660000x1 S660000 where
  offsetDims := []
  collapsedSliceDims := [0]
  operandBatchingDims := []
  startIndicesBatchingDims := []
  startIndexMap := [0]
  indexVectorDim := 1
  sliceSizes := ![1]
  wf := gather_S20000_S660000x1_S660000_n_0_n_n_0_1_1_wf
def gather_S20000x128_S660000x1_S660000x128_1_0_n_n_0_1_1128 : GatherDims S20000x128 S660000x1 S660000x128 where
  offsetDims := [1]
  collapsedSliceDims := [0]
  operandBatchingDims := []
  startIndicesBatchingDims := []
  startIndexMap := [0]
  indexVectorDim := 1
  sliceSizes := ![1, 128]
  wf := gather_S20000x128_S660000x1_S660000x128_1_0_n_n_0_1_1128_wf
def scatter_S20000x128_S660000x1_S660000x128_1_0_0_1 : ScatterDims S20000x128 S660000x1 S660000x128 where
  updateWindowDims := [1]
  insertedWindowDims := [0]
  scatterDimsToOperandDims := [0]
  indexVectorDim := 1
  wf := scatter_S20000x128_S660000x1_S660000x128_1_0_0_1_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S640000_S1920000x1_S1920000_n_0_0_1 : ScatterDims S640000 S1920000x1 S1920000 where
  updateWindowDims := []
  insertedWindowDims := [0]
  scatterDimsToOperandDims := [0]
  indexVectorDim := 1
  wf := scatter_S640000_S1920000x1_S1920000_n_0_0_1_wf
def gather_S640000_S1920000x1_S1920000_n_0_n_n_0_1_1 : GatherDims S640000 S1920000x1 S1920000 where
  offsetDims := []
  collapsedSliceDims := [0]
  operandBatchingDims := []
  startIndicesBatchingDims := []
  startIndexMap := [0]
  indexVectorDim := 1
  sliceSizes := ![1]
  wf := gather_S640000_S1920000x1_S1920000_n_0_n_n_0_1_1_wf
def gather_S640000x128_S1920000x1_S1920000x128_1_0_n_n_0_1_1128 : GatherDims S640000x128 S1920000x1 S1920000x128 where
  offsetDims := [1]
  collapsedSliceDims := [0]
  operandBatchingDims := []
  startIndicesBatchingDims := []
  startIndexMap := [0]
  indexVectorDim := 1
  sliceSizes := ![1, 128]
  wf := gather_S640000x128_S1920000x1_S1920000x128_1_0_n_n_0_1_1128_wf
def scatter_S640000x128_S1920000x1_S1920000x128_1_0_0_1 : ScatterDims S640000x128 S1920000x1 S1920000x128 where
  updateWindowDims := [1]
  insertedWindowDims := [0]
  scatterDimsToOperandDims := [0]
  indexVectorDim := 1
  wf := scatter_S640000x128_S1920000x1_S1920000x128_1_0_0_1_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v70) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v73) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v116) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v117) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v118) S8000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v126) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v127) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v128) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S2x1280000 : Shape := ⟨2, ![2, 1280000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S20000 : Shape := ⟨1, ![20000]⟩
abbrev S660000 : Shape := ⟨1, ![660000]⟩
abbrev S_ : Shape := ⟨0, ![]⟩
abbrev S660000x1 : Shape := ⟨2, ![660000, 1]⟩
abbrev S660000x128 : Shape := ⟨2, ![660000, 128]⟩
abbrev S1x128 : Shape := ⟨2, ![1, 128]⟩
abbrev S640000x1 : Shape := ⟨2, ![640000, 1]⟩
abbrev S640000x128 : Shape := ⟨2, ![640000, 128]⟩
abbrev S1x1280000 : Shape := ⟨2, ![1, 1280000]⟩
abbrev S1280000 : Shape := ⟨1, ![1280000]⟩
abbrev S1920000 : Shape := ⟨1, ![1920000]⟩
abbrev S1920000x1 : Shape := ⟨2, ![1920000, 1]⟩
abbrev S1920000x128 : Shape := ⟨2, ![1920000, 128]⟩

abbrev nBuf : Space → Nat
  | .hbm => 207
  | .vmem => 0
  | .smem => 0
  | _ => 0

abbrev hbmTy0_0 (i : Nat) : BufTy := match i % 128 with
  | 0 => ⟨S20000x128, .f32⟩
  | 1 => ⟨S2x640000, .i32⟩
  | 2 => ⟨S2x1280000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S1x640000, .i32⟩
  | 12 => ⟨S640000, .i32⟩
  | 13 => ⟨S1x640000, .i32⟩
  | 14 => ⟨S640000, .i32⟩
  | 15 => ⟨S20000x128, .f32⟩
  | 16 => ⟨S20000, .i32⟩
  | 17 => ⟨S1x640000, .i32⟩
  | 18 => ⟨S640000, .i32⟩
  | 19 => ⟨S660000, .i32⟩
  | 20 => ⟨S1x640000, .i32⟩
  | 21 => ⟨S640000, .i32⟩
  | 22 => ⟨S660000, .i32⟩
  | 23 => ⟨S_, .f32⟩
  | 24 => ⟨S660000, .f32⟩
  | 25 => ⟨S_, .f32⟩
  | 26 => ⟨S20000, .f32⟩
  | 27 => ⟨S660000x1, .i32⟩
  | 28 => ⟨S20000, .f32⟩
  | 29 => ⟨S_, .f32⟩
  | 30 => ⟨S20000, .f32⟩
  | 31 => ⟨S20000, .i1⟩
  | 32 => ⟨S20000, .f32⟩
  | 33 => ⟨S_, .f32⟩
  | 34 => ⟨S_, .f32⟩
  | 35 => ⟨S20000, .f32⟩
  | 36 => ⟨S20000, .f32⟩
  | 37 => ⟨S_, .i32⟩
  | 38 => ⟨S660000, .i32⟩
  | 39 => ⟨S660000, .i1⟩
  | 40 => ⟨S_, .i32⟩
  | 41 => ⟨S660000, .i32⟩
  | 42 => ⟨S660000, .i32⟩
  | 43 => ⟨S660000, .i32⟩
  | 44 => ⟨S660000x1, .i32⟩
  | 45 => ⟨S660000, .f32⟩
  | 46 => ⟨S_, .i32⟩
  | 47 => ⟨S660000, .i32⟩
  | 48 => ⟨S660000, .i1⟩
  | 49 => ⟨S_, .i32⟩
  | 50 => ⟨S660000, .i32⟩
  | 51 => ⟨S660000, .i32⟩
  | 52 => ⟨S660000, .i32⟩
  | 53 => ⟨S660000x1, .i32⟩
  | 54 => ⟨S660000, .f32⟩
  | 55 => ⟨S660000, .f32⟩
  | 56 => ⟨S_, .i32⟩
  | 57 => ⟨S660000, .i32⟩
  | 58 => ⟨S660000, .i1⟩
  | 59 => ⟨S_, .i32⟩
  | 60 => ⟨S660000, .i32⟩
  | 61 => ⟨S660000, .i32⟩
  | 62 => ⟨S660000, .i32⟩
  | 63 => ⟨S660000x1, .i32⟩
  | 64 => ⟨S660000x128, .f32⟩
  | 65 => ⟨S660000x1, .f32⟩
  | 66 => ⟨S660000x128, .f32⟩
  | 67 => ⟨S660000x128, .f32⟩
  | 68 => ⟨S_, .f32⟩
  | 69 => ⟨S20000x128, .f32⟩
  | 70 => ⟨S660000x1, .i32⟩
  | 71 => ⟨S20000x128, .f32⟩
  | 72 => ⟨S1x128, .f32⟩
  | 73 => ⟨S20000x128, .f32⟩
  | 74 => ⟨S20000x128, .f32⟩
  | 75 => ⟨S_, .f32⟩
  | 76 => ⟨S20000x128, .f32⟩
  | 77 => ⟨S20000x128, .f32⟩
  | 78 => ⟨S_, .i32⟩
  | 79 => ⟨S640000, .i32⟩
  | 80 => ⟨S640000, .i1⟩
  | 81 => ⟨S_, .i32⟩
  | 82 => ⟨S640000, .i32⟩
  | 83 => ⟨S640000, .i32⟩
  | 84 => ⟨S640000, .i32⟩
  | 85 => ⟨S640000x1, .i32⟩
  | 86 => ⟨S640000x128, .f32⟩
  | 87 => ⟨S_, .i32⟩
  | 88 => ⟨S640000, .i32⟩
  | 89 => ⟨S640000, .i1⟩
  | 90 => ⟨S_, .i32⟩
  | 91 => ⟨S640000, .i32⟩
  | 92 => ⟨S640000, .i32⟩
  | 93 => ⟨S640000, .i32⟩
  | 94 => ⟨S640000x1, .i32⟩
  | 95 => ⟨S640000x128, .f32⟩
  | 96 => ⟨S640000x128, .f32⟩
  | 97 => ⟨S_, .f32⟩
  | 98 => ⟨S640000x128, .f32⟩
  | 99 => ⟨S640000x128, .f32⟩
  | 100 => ⟨S640000x128, .f32⟩
  | 101 => ⟨S640000, .i32⟩
  | 102 => ⟨S1x1280000, .i32⟩
  | 103 => ⟨S1280000, .i32⟩
  | 104 => ⟨S1920000, .i32⟩
  | 105 => ⟨S1x1280000, .i32⟩
  | 106 => ⟨S1280000, .i32⟩
  | 107 => ⟨S1920000, .i32⟩
  | 108 => ⟨S_, .f32⟩
  | 109 => ⟨S1920000, .f32⟩
  | 110 => ⟨S_, .f32⟩
  | 111 => ⟨S640000, .f32⟩
  | 112 => ⟨S1920000x1, .i32⟩
  | 113 => ⟨S640000, .f32⟩
  | 114 => ⟨S_, .f32⟩
  | 115 => ⟨S640000, .f32⟩
  | 116 => ⟨S640000, .i1⟩
  | 117 => ⟨S640000, .f32⟩
  | 118 => ⟨S_, .f32⟩
  | 119 => ⟨S_, .f32⟩
  | 120 => ⟨S640000, .f32⟩
  | 121 => ⟨S640000, .f32⟩
  | 122 => ⟨S_, .i32⟩
  | 123 => ⟨S1920000, .i32⟩
  | 124 => ⟨S1920000, .i1⟩
  | 125 => ⟨S_, .i32⟩
  | 126 => ⟨S1920000, .i32⟩
  | 127 => ⟨S1920000, .i32⟩
  | _ => ⟨S20000x128, .f32⟩

abbrev hbmTy0_1 (i : Nat) : BufTy := match i % 128 with
  | 0 => ⟨S1920000, .i32⟩
  | 1 => ⟨S1920000x1, .i32⟩
  | 2 => ⟨S1920000, .f32⟩
  | 3 => ⟨S_, .i32⟩
  | 4 => ⟨S1920000, .i32⟩
  | 5 => ⟨S1920000, .i1⟩
  | 6 => ⟨S_, .i32⟩
  | 7 => ⟨S1920000, .i32⟩
  | 8 => ⟨S1920000, .i32⟩
  | 9 => ⟨S1920000, .i32⟩
  | 10 => ⟨S1920000x1, .i32⟩
  | 11 => ⟨S1920000, .f32⟩
  | 12 => ⟨S1920000, .f32⟩
  | 13 => ⟨S_, .i32⟩
  | 14 => ⟨S1920000, .i32⟩
  | 15 => ⟨S1920000, .i1⟩
  | 16 => ⟨S_, .i32⟩
  | 17 => ⟨S1920000, .i32⟩
  | 18 => ⟨S1920000, .i32⟩
  | 19 => ⟨S1920000, .i32⟩
  | 20 => ⟨S1920000x1, .i32⟩
  | 21 => ⟨S1920000x128, .f32⟩
  | 22 => ⟨S1920000x1, .f32⟩
  | 23 => ⟨S1920000x128, .f32⟩
  | 24 => ⟨S1920000x128, .f32⟩
  | 25 => ⟨S_, .f32⟩
  | 26 => ⟨S640000x128, .f32⟩
  | 27 => ⟨S1920000x1, .i32⟩
  | 28 => ⟨S640000x128, .f32⟩
  | 29 => ⟨S1x128, .f32⟩
  | 30 => ⟨S640000x128, .f32⟩
  | 31 => ⟨S640000x128, .f32⟩
  | 32 => ⟨S_, .f32⟩
  | 33 => ⟨S640000x128, .f32⟩
  | 34 => ⟨S640000x128, .f32⟩
  | 35 => ⟨S640000x128, .f32⟩
  | 36 => ⟨S1x128, .f32⟩
  | 37 => ⟨S640000x128, .f32⟩
  | 38 => ⟨S640000x128, .f32⟩
  | 39 => ⟨S_, .f32⟩
  | 40 => ⟨S20000x128, .f32⟩
  | 41 => ⟨S640000x1, .i32⟩
  | 42 => ⟨S20000x128, .f32⟩
  | 43 => ⟨S_, .f32⟩
  | 44 => ⟨S20000x128, .f32⟩
  | 45 => ⟨S640000x1, .i32⟩
  | 46 => ⟨S20000x128, .f32⟩
  | 47 => ⟨S20000x128, .f32⟩
  | 48 => ⟨S20000x128, .f32⟩
  | 49 => ⟨S20000x128, .f32⟩
  | 50 => ⟨S1x128, .f32⟩
  | 51 => ⟨S20000x128, .f32⟩
  | 52 => ⟨S20000x128, .f32⟩
  | 53 => ⟨S_, .f32⟩
  | 54 => ⟨S20000x128, .f32⟩
  | 55 => ⟨S20000x128, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000x128, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S640000x128, .f32⟩
  | 74 => ⟨S640000x128, .f32⟩
  | 75 => ⟨S_, .f32⟩
  | 76 => ⟨S640000x128, .f32⟩
  | 77 => ⟨S640000x128, .f32⟩
  | 78 => ⟨S640000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_17 : Ref sig .tc := ⟨.hbm, 118, rfl⟩
abbrev main_call2_v0 : Ref sig .tc := ⟨.hbm, 119, rfl⟩
abbrev main_call2_v1 : Ref sig .tc := ⟨.hbm, 120, rfl⟩
abbrev main_v84 : Ref sig .tc := ⟨.hbm, 121, rfl⟩
abbrev main_c_18 : Ref sig .tc := ⟨.hbm, 122, rfl⟩
abbrev main_v85 : Ref sig .tc := ⟨.hbm, 123, rfl⟩
abbrev main_v86 : Ref sig .tc := ⟨.hbm, 124, rfl⟩
abbrev main_c_19 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_20 : Ref sig .tc := ⟨.hbm, 131, rfl⟩
abbrev main_v92 : Ref sig .tc := ⟨.hbm, 132, rfl⟩
abbrev main_v93 : Ref sig .tc := ⟨.hbm, 133, rfl⟩
abbrev main_c_21 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_22 : Ref sig .tc := ⟨.hbm, 141, rfl⟩
abbrev main_v100 : Ref sig .tc := ⟨.hbm, 142, rfl⟩
abbrev main_v101 : Ref sig .tc := ⟨.hbm, 143, rfl⟩
abbrev main_c_23 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_24 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_call3_cst : Ref sig .tc := ⟨.hbm, 160, rfl⟩
abbrev main_call3_v0 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_25 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_26 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_call4_cst : Ref sig .tc := ⟨.hbm, 181, rfl⟩
abbrev main_call4_v0 : Ref sig .tc := ⟨.hbm, 182, rfl⟩
abbrev main_v133 : Ref sig .tc := ⟨.hbm, 183, rfl⟩
abbrev main_c_27 : Ref sig .tc := ⟨.hbm, 184, rfl⟩
abbrev main_v134 : Ref sig .tc := ⟨.hbm, 185, rfl⟩
abbrev main_v135 : Ref sig .tc := ⟨.hbm, 186, rfl⟩
abbrev main_c_28 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_c_29 : Ref sig .tc := ⟨.hbm, 193, rfl⟩
abbrev main_v141 : Ref sig .tc := ⟨.hbm, 194, rfl⟩
abbrev main_v142 : Ref sig .tc := ⟨.hbm, 195, rfl⟩
abbrev main_c_30 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_cst_31 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S20000_S660000_d0 : Shape.Concatenates [S640000, S20000] S660000 0
  bcast_S_S660000 : S_.BroadcastsInDim S660000 (![] : Fin 0 → Fin S660000.rank)
  bcast_S_S20000 : S_.BroadcastsInDim S20000 (![] : Fin 0 → Fin S20000.rank)
  bcast_S660000_S660000x1_0 : S660000.BroadcastsInDim S660000x1 (![0] : Fin 1 → Fin S660000x1.rank)
  bcast_S660000x1_S660000x128_0_1 : S660000x1.BroadcastsInDim S660000x128 (![0, 1] : Fin 2 → Fin S660000x128.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  slices_S2x1280000_S1x1280000_0_0 : S2x1280000.Slices ![0, 0] S1x1280000
  shapeCasts_S1x1280000_S1280000 : S1x1280000.ShapeCasts S1280000
  concatenates_S1280000_S640000_S1920000_d0 : Shape.Concatenates [S1280000, S640000] S1920000 0
  slices_S2x1280000_S1x1280000_1_0 : S2x1280000.Slices ![1, 0] S1x1280000
  bcast_S_S1920000 : S_.BroadcastsInDim S1920000 (![] : Fin 0 → Fin S1920000.rank)
  bcast_S1920000_S1920000x1_0 : S1920000.BroadcastsInDim S1920000x1 (![0] : Fin 1 → Fin S1920000x1.rank)
  bcast_S1920000x1_S1920000x128_0_1 : S1920000x1.BroadcastsInDim S1920000x128 (![0, 1] : Fin 2 → Fin S1920000x128.rank)
  bcast_S1x128_S640000x128_0_1 : S1x128.BroadcastsInDim S640000x128 (![0, 1] : Fin 2 → Fin S640000x128.rank)
  dot_S20000x128_S128x128_S20000x128_1_0_0_1_n_n_wf : DotDims.WF S20000x128 S128x128 S20000x128 [1] [0] [0] [1] [] []
  scatter_S20000_S660000x1_S660000_n_0_0_1_wf : ScatterDims.WF S20000 S660000x1 S660000 [] [0] [0] 1
  gather_S20000_S660000x1_S660000_n_0_n_n_0_1_1_wf : GatherDims.WF S20000 S660000x1 S660000 [] [0] [] [0] [] 1 ![1]
  gather_S20000x128_S660000x1_S660000x128_1_0_n_n_0_1_1128_wf : GatherDims.WF S20000x128 S660000x1 S660000x128 [1] [0] [] [0] [] 1 ![1, 128]
  scatter_S20000x128_S660000x1_S660000x128_1_0_0_1_wf : ScatterDims.WF S20000x128 S660000x1 S660000x128 [1] [0] [0] 1
  gather_S20000x128_S640000x1_S640000x128_1_0_n_n_0_1_1128_wf : GatherDims.WF S20000x128 S640000x1 S640000x128 [1] [0] [] [0] [] 1 ![1, 128]
  dot_S640000x128_S128x128_S640000x128_1_0_0_1_n_n_wf : DotDims.WF S640000x128 S128x128 S640000x128 [1] [0] [0] [1] [] []
  scatter_S640000_S1920000x1_S1920000_n_0_0_1_wf : ScatterDims.WF S640000 S1920000x1 S1920000 [] [0] [0] 1
  gather_S640000_S1920000x1_S1920000_n_0_n_n_0_1_1_wf : GatherDims.WF S640000 S1920000x1 S1920000 [] [0] [] [0] [] 1 ![1]
  gather_S640000x128_S1920000x1_S1920000x128_1_0_n_n_0_1_1128_wf : GatherDims.WF S640000x128 S1920000x1 S1920000x128 [1] [0] [] [0] [] 1 ![1, 128]
  scatter_S640000x128_S1920000x1_S1920000x128_1_0_0_1_wf : ScatterDims.WF S640000x128 S1920000x1 S1920000x128 [1] [0] [0] 1
  scatter_S20000x128_S640000x1_S640000x128_1_0_0_1_wf : ScatterDims.WF S20000x128 S640000x1 S640000x128 [1] [0] [0] 1

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def scatter_S20000_S660000x1_S660000_n_0_0_1 : ScatterDims S20000 S660000x1 S660000 where
  updateWindowDims := []
  insertedWindowDims := [0]
  scatterDimsToOperandDims := [0]
  indexVectorDim := 1
  wf := scatter_S20000_S660000x1_S660000_n_0_0_1_wf
def gather_S20000_S660000x1_S660000_n_0_n_n_0_1_1 : GatherDims S20000 S660000x1 S660000 where
  offsetDims := []
  collapsedSliceDims := [0]
  operandBatchingDims := []
  startIndicesBatchingDims := []
  startIndexMap := [0]
  indexVectorDim := 1
  sliceSizes := ![1]
  wf := gather_S20000_S660000x1_S660000_n_0_n_n_0_1_1_wf
def gather_S20000x128_S660000x1_S660000x128_1_0_n_n_0_1_1128 : GatherDims S20000x128 S660000x1 S660000x128 where
  offsetDims := [1]
  collapsedSliceDims := [0]
  operandBatchingDims := []
  startIndicesBatchingDims := []
  startIndexMap := [0]
  indexVectorDim := 1
  sliceSizes := ![1, 128]
  wf := gather_S20000x128_S660000x1_S660000x128_1_0_n_n_0_1_1128_wf
def scatter_S20000x128_S660000x1_S660000x128_1_0_0_1 : ScatterDims S20000x128 S660000x1 S660000x128 where
  updateWindowDims := [1]
  insertedWindowDims := [0]
  scatterDimsToOperandDims := [0]
  indexVectorDim := 1
  wf := scatter_S20000x128_S660000x1_S660000x128_1_0_0_1_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S640000_S1920000x1_S1920000_n_0_0_1 : ScatterDims S640000 S1920000x1 S1920000 where
  updateWindowDims := []
  insertedWindowDims := [0]
  scatterDimsToOperandDims := [0]
  indexVectorDim := 1
  wf := scatter_S640000_S1920000x1_S1920000_n_0_0_1_wf
def gather_S640000_S1920000x1_S1920000_n_0_n_n_0_1_1 : GatherDims S640000 S1920000x1 S1920000 where
  offsetDims := []
  collapsedSliceDims := [0]
  operandBatchingDims := []
  startIndicesBatchingDims := []
  startIndexMap := [0]
  indexVectorDim := 1
  sliceSizes := ![1]
  wf := gather_S640000_S1920000x1_S1920000_n_0_n_n_0_1_1_wf
def gather_S640000x128_S1920000x1_S1920000x128_1_0_n_n_0_1_1128 : GatherDims S640000x128 S1920000x1 S1920000x128 where
  offsetDims := [1]
  collapsedSliceDims := [0]
  operandBatchingDims := []
  startIndicesBatchingDims := []
  startIndexMap := [0]
  indexVectorDim := 1
  sliceSizes := ![1, 128]
  wf := gather_S640000x128_S1920000x1_S1920000x128_1_0_n_n_0_1_1128_wf
def scatter_S640000x128_S1920000x1_S1920000x128_1_0_0_1 : ScatterDims S640000x128 S1920000x1 S1920000x128 where
  updateWindowDims := [1]
  insertedWindowDims := [0]
  scatterDimsToOperandDims := [0]
  indexVectorDim := 1
  wf := scatter_S640000x128_S1920000x1_S1920000x128_1_0_0_1_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

class Facts : Prop extends Facts₀ where

variable [Facts]
-- ==== Proof.KernelResults.lean ====
/- The run of the idealized kernel program with its two results named: every weakly fair execution of @main ends,
   nothing faulting, with the two result buffers at the contents the last segment boundary gives them — the fold of
   the host stretches and the four regions' write-backs from the launch memory — and the arguments as launched. -/
import proofs.«130927_j36593121362364_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The last thread state holds every unscoped buffer at the last boundary's contents; read against the final
    state, that gives each result buffer its content there and each argument its launch content. -/
theorem run : θ_run defs (onTc (τ := τ) (main (F := F))) ⟨m, fun _ => 0, ρ⟩ (fun r => ∀ c : Dev nD,
      r.2.mem ((c.tc : Thread nD τ).loc main_v126) = W17 m ρ c (Proc.devRef .tc main_v126)
      ∧ r.2.mem ((c.tc : Thread nD τ).loc main_v146) = W17 m ρ c (Proc.devRef .tc main_v146)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v126 (by decide)),
       h c _ (mem_uc main_v146 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c)⟩)

end Cert.KernelIdeal.Results

end
-- ==== Proof.LibBiasRelu.lean ====
/- A bias row added to every row of a matrix, the sum then bounded below by a scalar spread over the matrix, at
   the ideal float instance and read at an entry, in the two spellings programs give it: with the host's
   broadcasts along named axes, and with a vector unit's casts and trailing-axis broadcast inside a kernel body.
   At (i, j) both are max (A (i, j) + bias (0, j)) floor. Also: a vector turned into a one-row matrix by a cast
   and by a broadcast along axis 1 is the same matrix. All for any extents. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Lib.BiasRelu

open Idealize.ShloMosaic Idealize.ShloMosaic.ValueIdx

variable {α : Type} {a b : ℕ}

/-- A one-row matrix repeated down a rows (a broadcast keeping both axes) reads, at (i, j), the row at j. -/
theorem rowRepeat_read (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply ![0, 1] h x (ix2 i j) (ix2 (0 : Fin 1) j) fun ax => ?_
  match ax with
  | ⟨0, _⟩ => rfl
  | ⟨1, _⟩ =>
    show j.val = if b = 1 then 0 else j.val
    split
    · have := j.isLt; omega
    · rfl

/-- A scalar spread over any shape reads the scalar everywhere. -/
theorem splat_read {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

/-- A vector as a one-row matrix: the cast and the broadcast along axis 1 give the same matrix. -/
theorem rowOfVec_cast_eq_bcast (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  rw [shapeCast_a_1a_apply]
  refine (broadcastInDim_apply ![1] hb v (ix2 u q) (ix1 q) fun ax => ?_).symm
  match ax with
  | ⟨0, _⟩ =>
    show q.val = if b = 1 then 0 else q.val
    split
    · have := q.isLt; omega
    · rfl

variable {φ : FTy}

/-- The host's spelling, at (i, j). -/
theorem host_read (A : FVec Ideal ⟨2, ![a, b]⟩ φ) (B : FVec Ideal ⟨2, ![1, b]⟩ φ) (z : FVec Ideal ⟨0, ![]⟩ φ)
    (hB : (⟨2, ![1, b]⟩ : Shape).BroadcastsInDim ⟨2, ![a, b]⟩ ![0, 1])
    (hz : (⟨0, ![]⟩ : Shape).BroadcastsInDim ⟨2, ![a, b]⟩ (![] : Fin 0 → Fin 2)) (i : Fin a) (j : Fin b) :
    maximumf (addf A (broadcastInDim ⟨2, ![a, b]⟩ ![0, 1] hB B)) (broadcastInDim ⟨2, ![a, b]⟩ ![] hz z) (ix2 i j)
      = max (A (ix2 i j) + B (ix2 (0 : Fin 1) j)) (z ix0) := by
  rw [maximumf_apply, addf_apply, rowRepeat_read, splat_read]

/-- A kernel body's spelling, at (p, q): both operands pass through identity casts, the bias row is repeated over
    the rows by a trailing-axis broadcast, the floor is a broadcast scalar. -/
theorem body_read (x0 : FVec Ideal ⟨2, ![a, b]⟩ φ) (x1 : FVec Ideal ⟨2, ![1, b]⟩ φ) (zc : Ideal φ)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ zc) (ix2 p q)
      = max (x0 (ix2 p q) + x1 (ix2 (0 : Fin 1) q)) zc := by
  rw [maximumf_apply, addf_apply, shapeCast_self, shapeCast_self, broadcastTo_1b_ab_apply, broadcast_apply]

end Cert.Lib.BiasRelu

end
-- ==== Proof.Sums.lean ====
/- Two small facts about arrays of extended reals: adding three arrays entry by entry does not depend on the
   grouping, and a row of zeros made by spreading the zero constant and casting it to one row reads zero. -/
import Idealize.ShloMosaic.PureOps.Ideal
import Idealize.ShloMosaic.PureOps.Ideal.Laws
import Idealize.ShloMosaic.Lib.ValueIdx
import Idealize.ShloMosaic.Lib.ValueLayout
import proofs.«130927_j36593121362364_2_alg».proof.Proof.LibBiasRelu

noncomputable section

namespace Cert.Sums

open Idealize.ShloMosaic Idealize.ShloMosaic.ValueIdx

/-- (a + b) + c = a + (b + c), entry by entry: addition on the extended reals is associative. -/
theorem addf_assoc {s : Shape} {φ : FTy} (a b c : FVec Ideal s φ) : addf (addf a b) c = addf a (addf b c) :=
  funext fun i => add_assoc (a i) (b i) (c i)

/-- The zero constant spread over b entries and cast to one row is zero at every column. -/
theorem zero_row_read {b : ℕ} (hs : (⟨0, ![]⟩ : Shape).BroadcastsInDim ⟨1, ![b]⟩ (![] : Fin 0 → Fin 1))
    (hc : (⟨1, ![b]⟩ : Shape).ShapeCasts ⟨2, ![1, b]⟩) (q : Fin b) :
    shapeCast ⟨2, ![1, b]⟩ (broadcastInDim ⟨1, ![b]⟩ ![] hs (constant (F := Ideal) ⟨0, ![]⟩ .f32 0x00000000#32)) hc
      (ix2 (0 : Fin 1) q) = 0 := by
  rw [shapeCast_a_1a_apply, Cert.Lib.BiasRelu.splat_read, constant_apply, Ideal.ofBits_zero_f32]

end Cert.Sums

end
-- ==== Proof.HostStretches.lean ====
/- The host stretches of the kernel program between its four regions, each read as pure functions of the buffers it
   finds: for any contents U at a stretch's entry, what each buffer the later text needs holds at its exit, given what
   U holds at the few buffers the stretch reads. The float stages are stated against the reference program's stages
   (the same operations of the same arguments), the index arrays likewise; buffers a stretch does not write are kept.
   All of this holds for any float values. The one place where the two programs group a sum differently is the atom
   update: (x + s₁) + s₂ here, x + (s₁ + s₂) in the reference; on the extended reals addition is associative, entry by
   entry, and that one statement is at the ideal instance. -/
import proofs.«130927_j36593121362364_2_alg».proof.Proof.Gen.KernelIdeal.Launch
import proofs.«130927_j36593121362364_2_alg».proof.Proof.ReferenceRead
import proofs.«130927_j36593121362364_2_alg».proof.Proof.Sums
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-- Reads through the operations that do not write the buffer asked for, and at those that do, wherever they stand
    in the term (also inside the operand lists of a concatenation). -/
macro "clear_results" : tactic =>
  `(tactic| repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide)
    | rw [StableHlo.nullary_result] | rw [StableHlo.unary_result] | rw [StableHlo.binary_result]
    | rw [StableHlo.ternary_result] | rw [StableHlo.reshape_result]))

/-! ## Before region 0: the edge endpoints as two index rows each, and a zero bias row -/

/-- The sources of the atom graph's edges. -/
theorem g0_v1 (U : Valuation τ sig (Elt F)) (x1 : (⟨S2x640000, .i32⟩ : BufTy).Contents (Elt F))
    (h0 : U (Proc.devRef .tc main_arg1) = x1) :
    StableHlo.after hostOps0 U (Proc.devRef .tc main_v1) = Cert.ReferenceIdeal.ReadP.val_main_v1 (F := F) x1 := by
  dsimp only [hostOps0]
  after_results_simp
  clear_results
  rw [h0]
  rfl

/-- The targets of the atom graph's edges. -/
theorem g0_v3 (U : Valuation τ sig (Elt F)) (x1 : (⟨S2x640000, .i32⟩ : BufTy).Contents (Elt F))
    (h0 : U (Proc.devRef .tc main_arg1) = x1) :
    StableHlo.after hostOps0 U (Proc.devRef .tc main_v3) = Cert.ReferenceIdeal.ReadP.val_main_v3 (F := F) x1 := by
  dsimp only [hostOps0]
  after_results_simp
  clear_results
  rw [h0]
  rfl

/-- The sources of the line graph's edges. -/
theorem g0_v5 (U : Valuation τ sig (Elt F)) (x2 : (⟨S2x1280000, .i32⟩ : BufTy).Contents (Elt F))
    (h0 : U (Proc.devRef .tc main_arg2) = x2) :
    StableHlo.after hostOps0 U (Proc.devRef .tc main_v5) = Cert.ReferenceIdeal.ReadP.val_main_v72 (F := F) x2 := by
  dsimp only [hostOps0]
  after_results_simp
  clear_results
  rw [h0]
  rfl

/-- The targets of the line graph's edges. -/
theorem g0_v7 (U : Valuation τ sig (Elt F)) (x2 : (⟨S2x1280000, .i32⟩ : BufTy).Contents (Elt F))
    (h0 : U (Proc.devRef .tc main_arg2) = x2) :
    StableHlo.after hostOps0 U (Proc.devRef .tc main_v7) = Cert.ReferenceIdeal.ReadP.val_main_v75 (F := F) x2 := by
  dsimp only [hostOps0]
  after_results_simp
  clear_results
  rw [h0]
  rfl

/-- The bias row of the first layer's product: zero. -/
theorem g0_v9 (U : Valuation τ sig (Elt F)) :
    StableHlo.after hostOps0 U (Proc.devRef .tc main_v9) = shapeCast S1x128 (broadcastInDim S128 ![] bcast_S_S128 (constant (F := F) S_ .f32 0x00000000#32)) shapeCasts_S128_S1x128 := by
  dsimp only [hostOps0]
  after_results_simp
  try rfl

theorem g0_keep_arg0 (U : Valuation τ sig (Elt F)) :
    StableHlo.after hostOps0 U (Proc.devRef .tc main_arg0) = U (Proc.devRef .tc main_arg0) := by
  dsimp only [hostOps0]
  after_results_simp

theorem g0_keep_arg1 (U : Valuation τ sig (Elt F)) :
    StableHlo.after hostOps0 U (Proc.devRef .tc main_arg1) = U (Proc.devRef .tc main_arg1) := by
  dsimp only [hostOps0]
  after_results_simp

theorem g0_keep_arg2 (U : Valuation τ sig (Elt F)) :
    StableHlo.after hostOps0 U (Proc.devRef .tc main_arg2) = U (Proc.devRef .tc main_arg2) := by
  dsimp only [hostOps0]
  after_results_simp

theorem g0_keep_arg3 (U : Valuation τ sig (Elt F)) :
    StableHlo.after hostOps0 U (Proc.devRef .tc main_arg3) = U (Proc.devRef .tc main_arg3) := by
  dsimp only [hostOps0]
  after_results_simp

theorem g0_keep_arg4 (U : Valuation τ sig (Elt F)) :
    StableHlo.after hostOps0 U (Proc.devRef .tc main_arg4) = U (Proc.devRef .tc main_arg4) := by
  dsimp only [hostOps0]
  after_results_simp

theorem g0_keep_arg5 (U : Valuation τ sig (Elt F)) :
    StableHlo.after hostOps0 U (Proc.devRef .tc main_arg5) = U (Proc.devRef .tc main_arg5) := by
  dsimp only [hostOps0]
  after_results_simp

theorem g0_keep_arg6 (U : Valuation τ sig (Elt F)) :
    StableHlo.after hostOps0 U (Proc.devRef .tc main_arg6) = U (Proc.devRef .tc main_arg6) := by
  dsimp only [hostOps0]
  after_results_simp

theorem g0_keep_arg7 (U : Valuation τ sig (Elt F)) :
    StableHlo.after hostOps0 U (Proc.devRef .tc main_arg7) = U (Proc.devRef .tc main_arg7) := by
  dsimp only [hostOps0]
  after_results_simp

theorem g0_keep_arg8 (U : Valuation τ sig (Elt F)) :
    StableHlo.after hostOps0 U (Proc.devRef .tc main_arg8) = U (Proc.devRef .tc main_arg8) := by
  dsimp only [hostOps0]
  after_results_simp

theorem g0_keep_arg9 (U : Valuation τ sig (Elt F)) :
    StableHlo.after hostOps0 U (Proc.devRef .tc main_arg9) = U (Proc.devRef .tc main_arg9) := by
  dsimp only [hostOps0]
  after_results_simp

theorem g0_keep_arg10 (U : Valuation τ sig (Elt F)) :
    StableHlo.after hostOps0 U (Proc.devRef .tc main_arg10) = U (Proc.devRef .tc main_arg10) := by
  dsimp only [hostOps0]
  after_results_simp

/-! ## Between regions 0 and 1: the atom convolution's aggregation, then each bond's mean of its endpoints -/

/-- The atom features after the first convolution: the normalised scatter of the gathered product rows, plus the bias, bounded below by zero. -/
theorem g1_v53 (U : Valuation τ sig (Elt F)) (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F))
    (h0 : U (Proc.devRef .tc main_v10) = Cert.ReferenceIdeal.ReadP.val_main_v4 (F := F) x0 x3)
    (h1 : U (Proc.devRef .tc main_v1) = Cert.ReferenceIdeal.ReadP.val_main_v1 (F := F) x1)
    (h2 : U (Proc.devRef .tc main_v3) = Cert.ReferenceIdeal.ReadP.val_main_v3 (F := F) x1)
    (h3 : U (Proc.devRef .tc main_arg4) = x4) :
    StableHlo.after hostOps1_3 (StableHlo.after hostOps1_2 (StableHlo.after hostOps1_1 (StableHlo.after hostOps1 U))) (Proc.devRef .tc main_v53) = Cert.ReferenceIdeal.ReadP.val_main_v51 (F := F) x0 x1 x3 x4 := by
  dsimp only [hostOps1, hostOps1_1, hostOps1_2, hostOps1_3]
  after_results_simp
  clear_results
  rw [h0, h1, h2, h3]
  rfl

theorem g1_keep_v1 (U : Valuation τ sig (Elt F)) :
    StableHlo.after hostOps1_3 (StableHlo.after hostOps1_2 (StableHlo.after hostOps1_1 (StableHlo.after hostOps1 U))) (Proc.devRef .tc main_v1) = U (Proc.devRef .tc main_v1) := by
  dsimp only [hostOps1, hostOps1_1, hostOps1_2, hostOps1_3]
  after_results_simp

theorem g1_keep_v3 (U : Valuation τ sig (Elt F)) :
    StableHlo.after hostOps1_3 (StableHlo.after hostOps1_2 (StableHlo.after hostOps1_1 (StableHlo.after hostOps1 U))) (Proc.devRef .tc main_v3) = U (Proc.devRef .tc main_v3) := by
  dsimp only [hostOps1, hostOps1_1, hostOps1_2, hostOps1_3]
  after_results_simp

theorem g1_keep_v5 (U : Valuation τ sig (Elt F)) :
    StableHlo.after hostOps1_3 (StableHlo.after hostOps1_2 (StableHlo.after hostOps1_1 (StableHlo.after hostOps1 U))) (Proc.devRef .tc main_v5) = U (Proc.devRef .tc main_v5) := by
  dsimp only [hostOps1, hostOps1_1, hostOps1_2, hostOps1_3]
  after_results_simp

theorem g1_keep_v7 (U : Valuation τ sig (Elt F)) :
    StableHlo.after hostOps1_3 (StableHlo.after hostOps1_2 (StableHlo.after hostOps1_1 (StableHlo.after hostOps1 U))) (Proc.devRef .tc main_v7) = U (Proc.devRef .tc main_v7) := by
  dsimp only [hostOps1, hostOps1_1, hostOps1_2, hostOps1_3]
  after_results_simp

theorem g1_keep_arg5 (U : Valuation τ sig (Elt F)) :
    StableHlo.after hostOps1_3 (StableHlo.after hostOps1_2 (StableHlo.after hostOps1_1 (StableHlo.after hostOps1 U))) (Proc.devRef .tc main_arg5) = U (Proc.devRef .tc main_arg5) := by
  dsimp only [hostOps1, hostOps1_1, hostOps1_2, hostOps1_3]
  after_results_simp

theorem g1_keep_arg6 (U : Valuation τ sig (Elt F)) :
    StableHlo.after hostOps1_3 (StableHlo.after hostOps1_2 (StableHlo.after hostOps1_1 (StableHlo.after hostOps1 U))) (Proc.devRef .tc main_arg6) = U (Proc.devRef .tc main_arg6) := by
  dsimp only [hostOps1, hostOps1_1, hostOps1_2, hostOps1_3]
  after_results_simp

theorem g1_keep_arg7 (U : Valuation τ sig (Elt F)) :
    StableHlo.after hostOps1_3 (StableHlo.after hostOps1_2 (StableHlo.after hostOps1_1 (StableHlo.after hostOps1 U))) (Proc.devRef .tc main_arg7) = U (Proc.devRef .tc main_arg7) := by
  dsimp only [hostOps1, hostOps1_1, hostOps1_2, hostOps1_3]
  after_results_simp

theorem g1_keep_arg8 (U : Valuation τ sig (Elt F)) :
    StableHlo.after hostOps1_3 (StableHlo.after hostOps1_2 (StableHlo.after hostOps1_1 (StableHlo.after hostOps1 U))) (Proc.devRef .tc main_arg8) = U (Proc.devRef .tc main_arg8) := by
  dsimp only [hostOps1, hostOps1_1, hostOps1_2, hostOps1_3]
  after_results_simp

theorem g1_keep_arg9 (U : Valuation τ sig (Elt F)) :
    StableHlo.after hostOps1_3 (StableHlo.after hostOps1_2 (StableHlo.after hostOps1_1 (StableHlo.after hostOps1 U))) (Proc.devRef .tc main_arg9) = U (Proc.devRef .tc main_arg9) := by
  dsimp only [hostOps1, hostOps1_1, hostOps1_2, hostOps1_3]
  after_results_simp

theorem g1_keep_arg10 (U : Valuation τ sig (Elt F)) :
    StableHlo.after hostOps1_3 (StableHlo.after hostOps1_2 (StableHlo.after hostOps1_1 (StableHlo.after hostOps1 U))) (Proc.devRef .tc main_arg10) = U (Proc.devRef .tc main_arg10) := by
  dsimp only [hostOps1, hostOps1_1, hostOps1_2, hostOps1_3]
  after_results_simp

/-- The bond features: half the sum of the two endpoint atoms' features. -/
theorem g1b_v70 (U : Valuation τ sig (Elt F)) (x0 : (⟨S20000x128, .f32⟩ : BufTy).Contents (Elt F)) (x1 : (⟨S2x640000, .i32⟩ : BufTy).Contents (Elt F)) (x3 : (⟨S128x128, .f32⟩ : BufTy).Contents (Elt F)) (x4 : (⟨S128, .f32⟩ : BufTy).Contents (Elt F))
    (h0 : U (Proc.devRef .tc main_v53) = Cert.ReferenceIdeal.ReadP.val_main_v51 (F := F) x0 x1 x3 x4)
    (h1 : U (Proc.devRef .tc main_v1) = Cert.ReferenceIdeal.ReadP.val_main_v1 (F := F) x1)
    (h2 : U (Proc.devRef .tc main_v3) = Cert.ReferenceIdeal.ReadP.val_main_v3 (F := F) x1) :
    StableHlo.after hostOps1_4 U (Proc.devRef .tc main_v70) = Cert.ReferenceIdeal.ReadP.val_main_v68 (F := F) x0 x1 x3 x4 := by
  dsimp only [hostOps1_4]
  after_results_simp
  clear_results
  rw [h0, h1, h2]
  rfl

/-- The bias row of the second layer's product: zero. -/
theorem g1b_v72 (U : Valuation τ sig (Elt F)) :
    StableHlo.after hostOps1_4 U (Proc.devRef .tc main_v72) = shapeCast S1x128 (broadcastInDim S128 ![] bcast_S_S128 (constant (F := F) S_ .f32 0x00000000#32)) shapeCasts_S128_S1x128 := by
  dsimp only [hostOps1_4]
  after_results_simp
  try rfl

theorem g1b_keep_v53 (U : Valuation τ sig (Elt F)) :
    StableHlo.after hostOps1_4 U (Proc.devRef .tc main_v53) = U (Proc.devRef .tc main_v53) := by
  dsimp only [hostOps1_4]
  after_results_simp

theorem g1b_keep_v1 (U : Valuation τ sig (Elt F)) :
    StableHlo.after hostOps1_4 U (Proc.devRef .tc main_v1) = U (Proc.devRef .tc main_v1) := by
  dsimp only [hostOps1_4]
  after_results_simp

theorem g1b_keep_v3 (U : Valuation τ sig (Elt F)) :
    StableHlo.after hostOps1_4 U (Proc.devRef .tc main_v3) = U (Proc.devRef .tc main_v3) := by
  dsimp only [hostOps1_4]
  after_results_simp

theorem g1b_keep_v5 (U : Valuation τ sig (Elt F)) :
    StableHlo.after hostOps1_4 U (Proc.devRef .tc main_v5) = U (Proc.devRef .tc main_v5) := by
  dsimp only [hostOps1_4]
  after_results_simp

theorem g1b_keep_v7 (U : Valuation τ sig (Elt F)) :
    StableHlo.after hostOps1_4 U (Proc.devRef .tc main_v7) = U (Proc.devRef .tc main_v7) := by
  dsimp only [hostOps1_4]
  after_results_simp

theorem g1b_keep_arg5 (U : Valuation τ sig (Elt F)) :
    StableHlo.after hostOps1_4 U (Proc.devRef .tc main_arg5) = U (Proc.devRef .tc main_arg5) := by
  dsimp only [hostOps1_4]
  after_results_simp

theorem g1b_keep_arg6 (U : Valuation τ sig (Elt F)) :
    StableHlo.after hostOps1_4 U (Proc.devRef .tc main_arg6) = U (Proc.devRef .tc main_arg6) := by
  dsimp only [hostOps1_4]
  after_results_simp

theorem g1b_keep_arg7 (U : Valuation τ sig (Elt F)) :
    StableHlo.after hostOps1_4 U (Proc.devRef .tc main_arg7) = U (Proc.devRef .tc main_arg7) := by
  dsimp only [hostOps1_4]
  after_results_simp

theorem g1b_keep_arg8 (U : Valuation τ sig (Elt F)) :
    StableHlo.after hostOps1_4 U (Proc.devRef .tc main_arg8) = U (Proc.devRef .tc main_arg8) := by
  dsimp only [hostOps1_4]
  after_results_simp

theorem g1b_keep_arg9 (U : Valuation τ sig (Elt F)) :
    StableHlo.after hostOps1_4 U (Proc.devRef .tc main_arg9) = U (Proc.devRef .tc main_arg9) := by
  dsimp only [hostOps1_4]
  after_results_simp

theorem g1b_keep_arg10 (U : Valuation τ sig (Elt F)) :
    StableHlo.after hostOps1_4 U (Proc.devRef .tc main_arg10) = U (Proc.devRef .tc main_arg10) := by
  dsimp only [hostOps1_4]
  after_results_simp

/-! ## Between regions 1 and 2: the line-graph convolution's aggregation -/

/-- The bond features after the line-graph convolution. -/
theorem g2_v116 (U : Valuation τ sig (Elt F)) (x0 : (⟨S20000x128, .f32⟩ : BufTy).Contents (Elt F)) (x1 : (⟨S2x640000, .i32⟩ : BufTy).Contents (Elt F)) (x2 : (⟨S2x1280000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h0 : U (Proc.devRef .tc main_v73) = Cert.ReferenceIdeal.ReadP.val_main_v69 (F := F) x0 x1 x3 x4 x5)
    (h1 : U (Proc.devRef .tc main_v5) = Cert.ReferenceIdeal.ReadP.val_main_v72 (F := F) x2)
    (h2 : U (Proc.devRef .tc main_v7) = Cert.ReferenceIdeal.ReadP.val_main_v75 (F := F) x2)
    (h3 : U (Proc.devRef .tc main_arg6) = x6) :
    StableHlo.after hostOps2_4 (StableHlo.after hostOps2_3 (StableHlo.after hostOps2_2 (StableHlo.after hostOps2_1 (StableHlo.after hostOps2 U)))) (Proc.devRef .tc main_v116) = Cert.ReferenceIdeal.ReadP.val_main_v116 (F := F) x0 x1 x2 x3 x4 x5 x6 := by
  dsimp only [hostOps2, hostOps2_1, hostOps2_2, hostOps2_3, hostOps2_4]
  after_results_simp
  clear_results
  rw [h0, h1, h2, h3]
  rfl

/-- A bias vector as a row. -/
theorem g2_v117 (U : Valuation τ sig (Elt F)) (x10 : (⟨S128, .f32⟩ : BufTy).Contents (Elt F)) (h0 : U (Proc.devRef .tc main_arg10) = x10) :
    StableHlo.after hostOps2_4 (StableHlo.after hostOps2_3 (StableHlo.after hostOps2_2 (StableHlo.after hostOps2_1 (StableHlo.after hostOps2 U)))) (Proc.devRef .tc main_v117) = shapeCast S1x128 x10 shapeCasts_S128_S1x128 := by
  dsimp only [hostOps2, hostOps2_1, hostOps2_2, hostOps2_3, hostOps2_4]
  after_results_simp
  rw [h0]
  rfl

theorem g2_keep_v53 (U : Valuation τ sig (Elt F)) :
    StableHlo.after hostOps2_4 (StableHlo.after hostOps2_3 (StableHlo.after hostOps2_2 (StableHlo.after hostOps2_1 (StableHlo.after hostOps2 U)))) (Proc.devRef .tc main_v53) = U (Proc.devRef .tc main_v53) := by
  dsimp only [hostOps2, hostOps2_1, hostOps2_2, hostOps2_3, hostOps2_4]
  after_results_simp

theorem g2_keep_v1 (U : Valuation τ sig (Elt F)) :
    StableHlo.after hostOps2_4 (StableHlo.after hostOps2_3 (StableHlo.after hostOps2_2 (StableHlo.after hostOps2_1 (StableHlo.after hostOps2 U)))) (Proc.devRef .tc main_v1) = U (Proc.devRef .tc main_v1) := by
  dsimp only [hostOps2, hostOps2_1, hostOps2_2, hostOps2_3, hostOps2_4]
  after_results_simp

theorem g2_keep_v3 (U : Valuation τ sig (Elt F)) :
    StableHlo.after hostOps2_4 (StableHlo.after hostOps2_3 (StableHlo.after hostOps2_2 (StableHlo.after hostOps2_1 (StableHlo.after hostOps2 U)))) (Proc.devRef .tc main_v3) = U (Proc.devRef .tc main_v3) := by
  dsimp only [hostOps2, hostOps2_1, hostOps2_2, hostOps2_3, hostOps2_4]
  after_results_simp

theorem g2_keep_arg7 (U : Valuation τ sig (Elt F)) :
    StableHlo.after hostOps2_4 (StableHlo.after hostOps2_3 (StableHlo.after hostOps2_2 (StableHlo.after hostOps2_1 (StableHlo.after hostOps2 U)))) (Proc.devRef .tc main_arg7) = U (Proc.devRef .tc main_arg7) := by
  dsimp only [hostOps2, hostOps2_1, hostOps2_2, hostOps2_3, hostOps2_4]
  after_results_simp

theorem g2_keep_arg8 (U : Valuation τ sig (Elt F)) :
    StableHlo.after hostOps2_4 (StableHlo.after hostOps2_3 (StableHlo.after hostOps2_2 (StableHlo.after hostOps2_1 (StableHlo.after hostOps2 U)))) (Proc.devRef .tc main_arg8) = U (Proc.devRef .tc main_arg8) := by
  dsimp only [hostOps2, hostOps2_1, hostOps2_2, hostOps2_3, hostOps2_4]
  after_results_simp

theorem g2_keep_arg9 (U : Valuation τ sig (Elt F)) :
    StableHlo.after hostOps2_4 (StableHlo.after hostOps2_3 (StableHlo.after hostOps2_2 (StableHlo.after hostOps2_1 (StableHlo.after hostOps2 U)))) (Proc.devRef .tc main_arg9) = U (Proc.devRef .tc main_arg9) := by
  dsimp only [hostOps2, hostOps2_1, hostOps2_2, hostOps2_3, hostOps2_4]
  after_results_simp

/-! ## Between regions 2 and 3: the bond messages scattered onto both endpoints and added to the atoms -/

/-- The updated atom features: (x + s₁) + s₂ here against the reference's x + (s₁ + s₂). -/
theorem g3_v126 (U : Valuation τ sig (Elt Ideal)) (x0 : (⟨S20000x128, .f32⟩ : BufTy).Contents (Elt Ideal)) (x1 : (⟨S2x640000, .i32⟩ : BufTy).Contents (Elt Ideal)) (x2 : (⟨S2x1280000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x9 : (⟨S128x128, .f32⟩ : BufTy).Contents (Elt Ideal)) (x10 : (⟨S128, .f32⟩ : BufTy).Contents (Elt Ideal))
    (h0 : U (Proc.devRef .tc main_v53) = Cert.ReferenceIdeal.ReadP.val_main_v51 (F := Ideal) x0 x1 x3 x4)
    (h1 : U (Proc.devRef .tc main_v118) = Cert.ReferenceIdeal.ReadP.val_main_v120 (F := Ideal) x0 x1 x2 x3 x4 x5 x6 x9 x10)
    (h2 : U (Proc.devRef .tc main_v1) = Cert.ReferenceIdeal.ReadP.val_main_v1 (F := Ideal) x1)
    (h3 : U (Proc.devRef .tc main_v3) = Cert.ReferenceIdeal.ReadP.val_main_v3 (F := Ideal) x1) :
    StableHlo.after hostOps3 U (Proc.devRef .tc main_v126) = Cert.ReferenceIdeal.ReadP.val_main_v128 (F := Ideal) x0 x1 x2 x3 x4 x5 x6 x9 x10 := by
  dsimp only [hostOps3]
  after_results_simp
  clear_results
  rw [h0, h1, h2, h3]
  exact (Cert.Sums.addf_assoc _ _ _).trans rfl

/-- A bias vector as a row. -/
theorem g3_v127 (U : Valuation τ sig (Elt F)) (x8 : (⟨S128, .f32⟩ : BufTy).Contents (Elt F)) (h0 : U (Proc.devRef .tc main_arg8) = x8) :
    StableHlo.after hostOps3 U (Proc.devRef .tc main_v127) = shapeCast S1x128 x8 shapeCasts_S128_S1x128 := by
  dsimp only [hostOps3]
  after_results_simp
  rw [h0]
  rfl

theorem g3_keep_v116 (U : Valuation τ sig (Elt F)) :
    StableHlo.after hostOps3 U (Proc.devRef .tc main_v116) = U (Proc.devRef .tc main_v116) := by
  dsimp only [hostOps3]
  after_results_simp

theorem g3_keep_v1 (U : Valuation τ sig (Elt F)) :
    StableHlo.after hostOps3 U (Proc.devRef .tc main_v1) = U (Proc.devRef .tc main_v1) := by
  dsimp only [hostOps3]
  after_results_simp

theorem g3_keep_v3 (U : Valuation τ sig (Elt F)) :
    StableHlo.after hostOps3 U (Proc.devRef .tc main_v3) = U (Proc.devRef .tc main_v3) := by
  dsimp only [hostOps3]
  after_results_simp

theorem g3_keep_arg7 (U : Valuation τ sig (Elt F)) :
    StableHlo.after hostOps3 U (Proc.devRef .tc main_arg7) = U (Proc.devRef .tc main_arg7) := by
  dsimp only [hostOps3]
  after_results_simp

/-! ## After region 3: each bond's mean of its endpoints' messages, added to the bond features -/

/-- The updated bond features. -/
theorem g4_v146 (U : Valuation τ sig (Elt F)) (x0 : (⟨S20000x128, .f32⟩ : BufTy).Contents (Elt F)) (x1 : (⟨S2x640000, .i32⟩ : BufTy).Contents (Elt F)) (x2 : (⟨S2x1280000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F))
    (h0 : U (Proc.devRef .tc main_v116) = Cert.ReferenceIdeal.ReadP.val_main_v116 (F := F) x0 x1 x2 x3 x4 x5 x6)
    (h1 : U (Proc.devRef .tc main_v128) = Cert.ReferenceIdeal.ReadP.val_main_v133 (F := F) x0 x1 x2 x3 x4 x5 x6 x7 x8 x9 x10)
    (h2 : U (Proc.devRef .tc main_v1) = Cert.ReferenceIdeal.ReadP.val_main_v1 (F := F) x1)
    (h3 : U (Proc.devRef .tc main_v3) = Cert.ReferenceIdeal.ReadP.val_main_v3 (F := F) x1) :
    StableHlo.after hostOps4 U (Proc.devRef .tc main_v146) = Cert.ReferenceIdeal.ReadP.val_main_v151 (F := F) x0 x1 x2 x3 x4 x5 x6 x7 x8 x9 x10 := by
  dsimp only [hostOps4]
  after_results_simp
  clear_results
  rw [h0, h1, h2, h3]
  rfl

theorem g4_keep_v126 (U : Valuation τ sig (Elt F)) :
    StableHlo.after hostOps4 U (Proc.devRef .tc main_v126) = U (Proc.devRef .tc main_v126) := by
  dsimp only [hostOps4]
  after_results_simp

end Cert.KernelIdeal.Stretch

end
-- ==== Proof.LibMatProd.lean ====
/- Matrix products of the ideal float instance read at an entry, for any extents: a rows-by-columns product
   (contracting the left operand's columns with the right operand's rows) accumulated into the zero matrix, and
   the host's product of the same pattern, are both, at (p, q), the sum over t of left (p, t) · right (t, q). -/
import Idealize.ShloMosaic.PureOps.Ideal
import Idealize.ShloMosaic.PureOps.Ideal.Laws
import Idealize.ShloMosaic.Lib.ValueIdx

noncomputable section

namespace Cert.Lib.MatProd

open Idealize.ShloMosaic Idealize.ShloMosaic.ValueIdx
open scoped BigOperators

variable {M K N : ℕ} {φ₁ φ₂ : FTy}

/-- The left operand's index at result entry j and contraction coordinate t: row j₀, column t. -/
theorem plain_lhs (j : (⟨2, ![M, N]⟩ : Shape).Idx) (t : Fin K) :
    (DotDims.plain M K N).lhsIdx j ((contrEquiv1 (DotDims.plain M K N) K rfl rfl).symm t) = ix2 (j 0) t := by
  funext a; apply Fin.ext
  match a with
  | ⟨0, _⟩ => rfl
  | ⟨1, _⟩ =>
    exact ((DotDims.plain M K N).lhsIdx_val_of_single rfl j _).trans
      (contrEquiv1_symm_val (DotDims.plain M K N) K rfl rfl t)

/-- The right operand's index at result entry j and contraction coordinate t: row t, column j₁. -/
theorem plain_rhs (j : (⟨2, ![M, N]⟩ : Shape).Idx) (t : Fin K) :
    (DotDims.plain M K N).rhsIdx j ((contrEquiv1 (DotDims.plain M K N) K rfl rfl).symm t) = ix2 t (j 1) := by
  funext a; apply Fin.ext
  match a with
  | ⟨0, _⟩ =>
    exact ((DotDims.plain M K N).rhsIdx_val_of_single rfl j _).trans
      (contrEquiv1_symm_val (DotDims.plain M K N) K rfl rfl t)
  | ⟨1, _⟩ => rfl

/-- A product accumulated into the zero matrix, read at (p, q). -/
theorem matmul_zero_read (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant (F := Ideal) ⟨2, ![M, N]⟩ .f32 0x00000000#32) (ix2 p q)
      = ∑ t : Fin K, l (ix2 p t) * r (ix2 t q) := by
  refine (Ideal.matmul_constant_zero_apply (DotDims.plain M K N) prec l r (ix2 p q)).trans ?_
  rw [← Equiv.sum_comp (contrEquiv1 (DotDims.plain M K N) K rfl rfl).symm]
  exact Finset.sum_congr rfl fun t _ => by rw [plain_lhs, plain_rhs]; rfl

/-- The host's product, read at (p, q). -/
theorem dotGeneral_read (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ t : Fin K, l (ix2 p t) * r (ix2 t q) := by
  refine (Ideal.dotGeneral_apply (DotDims.plain M K N) prec sched l r (ix2 p q)).trans ?_
  rw [← Equiv.sum_comp (contrEquiv1 (DotDims.plain M K N) K rfl rfl).symm]
  exact Finset.sum_congr rfl fun t _ => by rw [plain_lhs, plain_rhs]; rfl

end Cert.Lib.MatProd

end
-- ==== Proof.Affine.lean ====
/- The dense layer this network applies four times, as one function of whole arrays at the ideal float instance:
   entry (i, j) of the result is the sum over t of X (i, t) · W (t, j), plus the bias row at j — and, for the
   last layer, bounded below by a floor. Here: that function, and that it is what a kernel body's matrix product
   into a zero matrix plus a repeated bias row computes on a block, what the host's product plus a repeated
   bias row computes on the whole array, and, when the bias row is zero, the host's product alone. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«130927_j36593121362364_2_alg».proof.Proof.LibMatProd
import proofs.«130927_j36593121362364_2_alg».proof.Proof.LibBiasRelu

noncomputable section

namespace Cert.Layer

open Idealize.ShloMosaic Idealize.ShloMosaic.ValueIdx
open scoped BigOperators

variable {M : ℕ}

/-- X · W plus the bias row b, entry by entry. -/
def affine (X : FVec Ideal ⟨2, ![M, 128]⟩ .f32) (W : FVec Ideal ⟨2, ![128, 128]⟩ .f32)
    (b : FVec Ideal ⟨2, ![1, 128]⟩ .f32) : FVec Ideal ⟨2, ![M, 128]⟩ .f32 :=
  fun i => (∑ t : Fin 128, X (ix2 (i 0) t) * W (ix2 t (i 1))) + b (ix2 (0 : Fin 1) (i 1))

/-- max (X · W + b, z), entry by entry. -/
def affineFloor (X : FVec Ideal ⟨2, ![M, 128]⟩ .f32) (W : FVec Ideal ⟨2, ![128, 128]⟩ .f32)
    (b : FVec Ideal ⟨2, ![1, 128]⟩ .f32) (z : Ideal .f32) : FVec Ideal ⟨2, ![M, 128]⟩ .f32 :=
  fun i => max (affine X W b i) z

theorem affine_read (X : FVec Ideal ⟨2, ![M, 128]⟩ .f32) (W : FVec Ideal ⟨2, ![128, 128]⟩ .f32)
    (b : FVec Ideal ⟨2, ![1, 128]⟩ .f32) (p : Fin M) (q : Fin 128) :
    affine X W b (ix2 p q) = (∑ t : Fin 128, X (ix2 p t) * W (ix2 t q)) + b (ix2 (0 : Fin 1) q) := rfl

/-- Entry (i, j) of X · W + b reads row i of X only: two arrays that agree on that row, with the same W and b,
    give the same entry. -/
theorem affine_congr_row {M' : ℕ} (X : FVec Ideal ⟨2, ![M, 128]⟩ .f32) (X' : FVec Ideal ⟨2, ![M', 128]⟩ .f32)
    (W : FVec Ideal ⟨2, ![128, 128]⟩ .f32) (b : FVec Ideal ⟨2, ![1, 128]⟩ .f32)
    (p : Fin M) (p' : Fin M') (q : Fin 128) (h : ∀ t : Fin 128, X (ix2 p t) = X' (ix2 p' t)) :
    affine X W b (ix2 p q) = affine X' W b (ix2 p' q) := by
  rw [affine_read, affine_read]
  exact congrArg (· + b (ix2 (0 : Fin 1) q)) (Finset.sum_congr rfl fun t _ => by rw [h t])

/-- A kernel body's spelling: the operands narrowed (the identity here), multiplied into a zero matrix, the bias
    row cast to itself and repeated over the rows, added. -/
theorem body_affine (x0 : FVec Ideal ⟨2, ![M, 128]⟩ .f32) (x1 : FVec Ideal ⟨2, ![128, 128]⟩ .f32)
    (x2 : FVec Ideal ⟨2, ![1, 128]⟩ .f32) (h0 h1 : FTy.bf16.bits < FTy.f32.bits)
    (hc : (⟨2, ![1, 128]⟩ : Shape).ShapeCasts ⟨2, ![1, 128]⟩)
    (hb : (⟨2, ![1, 128]⟩ : Shape).Broadcasts ⟨2, ![M, 128]⟩) (p : Fin M) (q : Fin 128) :
    addf (matmul (DotDims.plain M 128 128) none (truncf .bf16 x0 h0) (truncf .bf16 x1 h1)
        (constant (F := Ideal) ⟨2, ![M, 128]⟩ .f32 0x00000000#32))
      (broadcastTo ⟨2, ![M, 128]⟩ (shapeCast ⟨2, ![1, 128]⟩ x2 hc) hb) (ix2 p q)
    = affine x0 x1 x2 (ix2 p q) := by
  rw [addf_apply, broadcastTo_1b_ab_apply, shapeCast_self, affine_read]
  exact congrArg (· + x2 (ix2 (0 : Fin 1) q))
    (Cert.Lib.MatProd.matmul_zero_read none (truncf .bf16 x0 h0) (truncf .bf16 x1 h1) p q)

/-- The same with the sum bounded below by a broadcast scalar. -/
theorem body_affineFloor (x0 : FVec Ideal ⟨2, ![M, 128]⟩ .f32) (x1 : FVec Ideal ⟨2, ![128, 128]⟩ .f32)
    (x2 : FVec Ideal ⟨2, ![1, 128]⟩ .f32) (z : Ideal .f32) (h0 h1 : FTy.bf16.bits < FTy.f32.bits)
    (hc : (⟨2, ![1, 128]⟩ : Shape).ShapeCasts ⟨2, ![1, 128]⟩)
    (hb : (⟨2, ![1, 128]⟩ : Shape).Broadcasts ⟨2, ![M, 128]⟩) (p : Fin M) (q : Fin 128) :
    maximumf (addf (matmul (DotDims.plain M 128 128) none (truncf .bf16 x0 h0) (truncf .bf16 x1 h1)
          (constant (F := Ideal) ⟨2, ![M, 128]⟩ .f32 0x00000000#32))
        (broadcastTo ⟨2, ![M, 128]⟩ (shapeCast ⟨2, ![1, 128]⟩ x2 hc) hb))
      (broadcast ⟨2, ![M, 128]⟩ z) (ix2 p q)
    = affineFloor x0 x1 x2 z (ix2 p q) := by
  rw [maximumf_apply, broadcast_apply, body_affine]
  rfl

/-- The host's spelling: its product, plus the bias row repeated over the rows. -/
theorem host_affine (X : FVec Ideal ⟨2, ![M, 128]⟩ .f32) (W : FVec Ideal ⟨2, ![128, 128]⟩ .f32)
    (b : FVec Ideal ⟨2, ![1, 128]⟩ .f32)
    (hB : (⟨2, ![1, 128]⟩ : Shape).BroadcastsInDim ⟨2, ![M, 128]⟩ ![0, 1]) :
    addf (Host.dotGeneral (DotDims.plain M 128 128) none X W) (broadcastInDim ⟨2, ![M, 128]⟩ ![0, 1] hB b)
      = affine X W b := by
  funext i
  obtain ⟨p, q, rfl⟩ : ∃ (p : Fin M) (q : Fin 128), i = ix2 p q := ⟨i 0, i 1, eq_ix2 i⟩
  rw [addf_apply, Cert.Lib.BiasRelu.rowRepeat_read, affine_read]
  exact congrArg (· + b (ix2 (0 : Fin 1) q)) (Cert.Lib.MatProd.dotGeneral_read none .single X W p q)

/-- The host's spelling of the bounded layer: the floor is a scalar spread over the array. -/
theorem host_affineFloor (X : FVec Ideal ⟨2, ![M, 128]⟩ .f32) (W : FVec Ideal ⟨2, ![128, 128]⟩ .f32)
    (b : FVec Ideal ⟨2, ![1, 128]⟩ .f32) (z : FVec Ideal ⟨0, ![]⟩ .f32)
    (hB : (⟨2, ![1, 128]⟩ : Shape).BroadcastsInDim ⟨2, ![M, 128]⟩ ![0, 1])
    (hz : (⟨0, ![]⟩ : Shape).BroadcastsInDim ⟨2, ![M, 128]⟩ (![] : Fin 0 → Fin 2)) :
    maximumf (addf (Host.dotGeneral (DotDims.plain M 128 128) none X W) (broadcastInDim ⟨2, ![M, 128]⟩ ![0, 1] hB b))
        (broadcastInDim ⟨2, ![M, 128]⟩ ![] hz z)
      = affineFloor X W b (z ix0) := by
  funext i
  rw [maximumf_apply, Cert.Lib.BiasRelu.splat_read, host_affine]
  rfl

/-- With a bias row that is zero at every column the layer is the host's product alone: s + 0 = s. -/
theorem affine_zero_bias (X : FVec Ideal ⟨2, ![M, 128]⟩ .f32) (W : FVec Ideal ⟨2, ![128, 128]⟩ .f32)
    (b : FVec Ideal ⟨2, ![1, 128]⟩ .f32) (hb : ∀ q : Fin 128, b (ix2 (0 : Fin 1) q) = 0) :
    affine X W b = Host.dotGeneral (DotDims.plain M 128 128) none X W := by
  funext i
  obtain ⟨p, q, rfl⟩ : ∃ (p : Fin M) (q : Fin 128), i = ix2 p q := ⟨i 0, i 1, eq_ix2 i⟩
  rw [affine_read, hb q, add_zero]
  exact (Cert.Lib.MatProd.dotGeneral_read none .single X W p q).symm

end Cert.Layer

end
-- ==== Proof.Layer0.lean ====
/- Region 0 of the kernel program, as a function of whole arrays at the ideal instance. The grid has 10 points;
   point t reads rows 2000·t … 2000·t + 1999 of the 20000-row operand, the whole weight matrix and the whole bias row, and
   writes the same rows of the result. On a block the body computes the rows of X · W plus the bias row;
   entry (i, j) of that depends on row i of X only, so every block is the restriction of one whole-array function,
   and the 10 blocks tile the result. -/
import proofs.«130927_j36593121362364_2_alg».proof.Proof.Gen.KernelIdeal.Frame
import proofs.«130927_j36593121362364_2_alg».proof.Proof.Affine
import Idealize.ShloMosaic.Lib.Pipeline.Value
import Idealize.ShloMosaic.Lib.ValueIdx

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output block, at an entry: the layer applied to the loaded blocks. -/
theorem out_read (x0 : Vec Ideal S2000x128 .f32) (x1 : Vec Ideal S128x128 .f32) (x2 : Vec Ideal S1x128 .f32)
    (p : Fin 2000) (q : Fin 128) :
    out0_3 x0 x1 x2 (ix2 p q) = Cert.Layer.affine x0 x1 x2 (ix2 p q) := by
  unfold out0_3
  rw [View.canon_unit_zero hz]
  simp only [View.ld_unit_zero (S := S2000x128) hz, View.ld_unit_zero (S := S128x128) hz, View.ld_unit_zero (S := S1x128) hz]
  unfold k0_pay1
  exact Cert.Layer.body_affine x0 x1 x2 _ _ _ _ p q

/-- An entry of the output block depends on one row of the row operand: if that row is row i₀ of a whole array X,
    the entry is the layer of X at (i₀, the same column). -/
theorem block_entry (x0 : Vec Ideal S2000x128 .f32) (X : Vec Ideal S20000x128 .f32) (W : Vec Ideal S128x128 .f32)
    (B : Vec Ideal S1x128 .f32) (j : S2000x128.Idx) (i : S20000x128.Idx)
    (hrow : ∀ t : Fin 128, x0 (ix2 (j 0) t) = X (ix2 (i 0) t)) (hcol : (i 1).val = (j 1).val) :
    out0_3 x0 W B j = Cert.Layer.affine X W B i := by
  obtain ⟨p, q, rfl⟩ : ∃ (p : Fin 2000) (q : Fin 128), j = ix2 p q := ⟨j 0, j 1, eq_ix2 j⟩
  obtain ⟨p', q', rfl⟩ : ∃ (p' : Fin 20000) (q' : Fin 128), i = ix2 p' q' := ⟨i 0, i 1, eq_ix2 i⟩
  obtain rfl : q' = q := Fin.ext hcol
  rw [out_read]
  exact Cert.Layer.affine_congr_row x0 X W B p p' q' hrow

/-- The printed index maps over the grid: the row operand and the result move down one block per point, the weight
    matrix and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight matrix's block is the matrix, at every point. -/
theorem blk_weights (c : Dev nD) (t : Fin cfg0.N) : iblk0 V c 1 t = V c main_arg3 := by
  obtain ⟨-, -, e2, e3, -, -, -, -⟩ := idx_facts t
  funext y
  unfold iblk0
  rw [View.read_apply]
  show V c main_arg3 (((cfg0.win 1).blk t).view.emb y) = V c main_arg3 y
  refine congrArg _ (funext fun a => Fin.ext ?_)
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The bias row's block is the row, at every point. -/
theorem blk_bias (c : Dev nD) (t : Fin cfg0.N) : iblk0 V c 2 t = V c main_v9 := by
  obtain ⟨-, -, -, -, e4, e5, -, -⟩ := idx_facts t
  funext y
  unfold iblk0
  rw [View.read_apply]
  show V c main_v9 (((cfg0.win 2).blk t).view.emb y) = V c main_v9 y
  refine congrArg _ (funext fun a => Fin.ext ?_)
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-- The row operand's block at point t, at (r, s), is the operand at (2000·t + r, s). -/
theorem blk_rows (c : Dev nD) (t : Fin cfg0.N) (y : S2000x128.Idx) (i : S20000x128.Idx)
    (h0 : (i 0).val = t.val * 2000 + (y 0).val) (h1 : (i 1).val = (y 1).val) :
    (iblk0 V c 0 t : Vec Ideal S2000x128 .f32) y = (V c main_arg0 : S20000x128.Idx → Elt Ideal .f32) i := by
  obtain ⟨e0, e1, -, -, -, -, -, -⟩ := idx_facts t
  unfold iblk0
  rw [View.read_apply]
  show V c main_arg0 (((cfg0.win 0).blk t).view.emb y) = V c main_arg0 i
  refine congrArg _ (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- What point t writes back is block t of the layer of the whole arrays as the region finds them. -/
theorem flushed_eq (c : Dev nD) (t : Fin cfg0.N) :
    (dat0 V c).flushed 3 t
      = ((cfg0.win 3).blk t).view.read (Elt Ideal) (Cert.Layer.affine (V c main_arg0) (V c main_arg3) (V c main_v9)) := by
  show (cfg0.win 3).cut (grid0.coords t) ((dat0 V c).after 3 t) = _
  rw [after0_3, blk_weights V c t, blk_bias V c t]
  obtain ⟨-, -, -, -, -, -, e6, e7⟩ := idx_facts t
  funext j
  rw [View.read_apply]
  refine block_entry (iblk0 V c 0 t) (V c main_arg0) (V c main_arg3) (V c main_v9) j (((cfg0.win 3).blk t).view.emb j) (fun s => ?_) ?_
  · refine blk_rows V c t (ix2 (j 0) s) (ix2 ((((cfg0.win 3).blk t).view.emb j) 0) s) ?_ rfl
    show win0_3.index t (0 : Fin 2) * 2000 + 1 * (j 0).val = t.val * 2000 + (j 0).val
    rw [e6]; omega
  · show win0_3.index t (1 : Fin 2) * 128 + 1 * (j 1).val = (j 1).val
    rw [e7]; omega

/-- An index of the result is in point t's block iff each coordinate is in the block's range on its axis. -/
theorem mem_blk (t : Fin cfg0.N) (i : S20000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v10).slice (win0_3.rect t)).set ↔ _
  rw [View.set_slice_whole, Rect.mem_set_unit]
  exact Iff.rfl

/-- The result array when the region is left: the layer of the arrays the region found, everywhere (row i lies in
    the block of point i / 2000). -/
theorem result (c : Dev nD) :
    (dat0 V c).arrAt 3 cfg0.N = Cert.Layer.affine (V c main_arg0) (V c main_arg3) (V c main_v9) :=
  (dat0 V c).arrAt_eq_of_cover 3 _ (fun t _ => flushed_eq V c t) fun i => by
    have hN : grid0.N = 10 := N_0
    have hi0 : (i 0).val < 20000 := (i 0).isLt
    have hi1 : (i 1).val < 128 := (i 1).isLt
    have hlt : (i 0).val / 2000 < cfg0.N := by show (i 0).val / 2000 < grid0.N; rw [hN]; omega
    obtain ⟨-, -, -, -, -, -, e6, e7⟩ := idx_facts ⟨(i 0).val / 2000, hlt⟩
    refine ⟨⟨(i 0).val / 2000, hlt⟩, flush0_3 _, ?_⟩
    rw [mem_blk]
    intro a
    match a with
    | ⟨0, _⟩ =>
      show win0_3.index ⟨(i 0).val / 2000, hlt⟩ (0 : Fin 2) * 2000 ≤ (i 0).val
        ∧ (i 0).val < win0_3.index ⟨(i 0).val / 2000, hlt⟩ (0 : Fin 2) * 2000 + 2000
      rw [e6]; show (i 0).val / 2000 * 2000 ≤ (i 0).val ∧ (i 0).val < (i 0).val / 2000 * 2000 + 2000; omega
    | ⟨1, _⟩ =>
      show win0_3.index ⟨(i 0).val / 2000, hlt⟩ (1 : Fin 2) * 128 ≤ (i 1).val
        ∧ (i 1).val < win0_3.index ⟨(i 0).val / 2000, hlt⟩ (1 : Fin 2) * 128 + 128
      rw [e7]; omega

end Cert.KernelIdeal.Layer0

end
-- ==== Proof.Layer1.lean ====
/- Region 1 of the kernel program, as a function of whole arrays at the ideal instance. The grid has 80 points;
   point t reads rows 8000·t … 8000·t + 7999 of the 640000-row operand, the whole weight matrix and the whole bias row, and
   writes the same rows of the result. On a block the body computes the rows of X · W plus the bias row;
   entry (i, j) of that depends on row i of X only, so every block is the restriction of one whole-array function,
   and the 80 blocks tile the result. -/
import proofs.«130927_j36593121362364_2_alg».proof.Proof.Gen.KernelIdeal.Frame
import proofs.«130927_j36593121362364_2_alg».proof.Proof.Affine
import Idealize.ShloMosaic.Lib.Pipeline.Value
import Idealize.ShloMosaic.Lib.ValueIdx

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output block, at an entry: the layer applied to the loaded blocks. -/
theorem out_read (x0 : Vec Ideal S8000x128 .f32) (x1 : Vec Ideal S128x128 .f32) (x2 : Vec Ideal S1x128 .f32)
    (p : Fin 8000) (q : Fin 128) :
    out1_3 x0 x1 x2 (ix2 p q) = Cert.Layer.affine x0 x1 x2 (ix2 p q) := by
  unfold out1_3
  rw [View.canon_unit_zero hz]
  simp only [View.ld_unit_zero (S := S8000x128) hz, View.ld_unit_zero (S := S128x128) hz, View.ld_unit_zero (S := S1x128) hz]
  unfold k1_pay1
  rw [shapeCast_self x0]
  exact Cert.Layer.body_affine x0 x1 x2 _ _ _ _ p q

/-- An entry of the output block depends on one row of the row operand: if that row is row i₀ of a whole array X,
    the entry is the layer of X at (i₀, the same column). -/
theorem block_entry (x0 : Vec Ideal S8000x128 .f32) (X : Vec Ideal S640000x128 .f32) (W : Vec Ideal S128x128 .f32)
    (B : Vec Ideal S1x128 .f32) (j : S8000x128.Idx) (i : S640000x128.Idx)
    (hrow : ∀ t : Fin 128, x0 (ix2 (j 0) t) = X (ix2 (i 0) t)) (hcol : (i 1).val = (j 1).val) :
    out1_3 x0 W B j = Cert.Layer.affine X W B i := by
  obtain ⟨p, q, rfl⟩ : ∃ (p : Fin 8000) (q : Fin 128), j = ix2 p q := ⟨j 0, j 1, eq_ix2 j⟩
  obtain ⟨p', q', rfl⟩ : ∃ (p' : Fin 640000) (q' : Fin 128), i = ix2 p' q' := ⟨i 0, i 1, eq_ix2 i⟩
  obtain rfl : q' = q := Fin.ext hcol
  rw [out_read]
  exact Cert.Layer.affine_congr_row x0 X W B p p' q' hrow

/-- The printed index maps over the grid: the row operand and the result move down one block per point, the weight
    matrix and the bias row stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The weight matrix's block is the matrix, at every point. -/
theorem blk_weights (c : Dev nD) (t : Fin cfg1.N) : iblk1 V c 1 t = V c main_arg5 := by
  obtain ⟨-, -, e2, e3, -, -, -, -⟩ := idx_facts t
  funext y
  unfold iblk1
  rw [View.read_apply]
  show V c main_arg5 (((cfg1.win 1).blk t).view.emb y) = V c main_arg5 y
  refine congrArg _ (funext fun a => Fin.ext ?_)
  match a with
  | ⟨0, _⟩ => show win1_1.index t (0 : Fin 2) * 128 + 1 * (y 0).val = (y 0).val; rw [e2]; omega
  | ⟨1, _⟩ => show win1_1.index t (1 : Fin 2) * 128 + 1 * (y 1).val = (y 1).val; rw [e3]; omega

/-- The bias row's block is the row, at every point. -/
theorem blk_bias (c : Dev nD) (t : Fin cfg1.N) : iblk1 V c 2 t = V c main_v72 := by
  obtain ⟨-, -, -, -, e4, e5, -, -⟩ := idx_facts t
  funext y
  unfold iblk1
  rw [View.read_apply]
  show V c main_v72 (((cfg1.win 2).blk t).view.emb y) = V c main_v72 y
  refine congrArg _ (funext fun a => Fin.ext ?_)
  match a with
  | ⟨0, _⟩ => show win1_2.index t (0 : Fin 2) * 1 + 1 * (y 0).val = (y 0).val; rw [e4]; omega
  | ⟨1, _⟩ => show win1_2.index t (1 : Fin 2) * 128 + 1 * (y 1).val = (y 1).val; rw [e5]; omega

/-- The row operand's block at point t, at (r, s), is the operand at (8000·t + r, s). -/
theorem blk_rows (c : Dev nD) (t : Fin cfg1.N) (y : S8000x128.Idx) (i : S640000x128.Idx)
    (h0 : (i 0).val = t.val * 8000 + (y 0).val) (h1 : (i 1).val = (y 1).val) :
    (iblk1 V c 0 t : Vec Ideal S8000x128 .f32) y = (V c main_v70 : S640000x128.Idx → Elt Ideal .f32) i := by
  obtain ⟨e0, e1, -, -, -, -, -, -⟩ := idx_facts t
  unfold iblk1
  rw [View.read_apply]
  show V c main_v70 (((cfg1.win 0).blk t).view.emb y) = V c main_v70 i
  refine congrArg _ (funext fun a => Fin.ext ?_)
  match a with
  | ⟨0, _⟩ => show win1_0.index t (0 : Fin 2) * 8000 + 1 * (y 0).val = (i 0).val; rw [e0, h0]; omega
  | ⟨1, _⟩ => show win1_0.index t (1 : Fin 2) * 128 + 1 * (y 1).val = (i 1).val; rw [e1, h1]; omega

/-- What point t writes back is block t of the layer of the whole arrays as the region finds them. -/
theorem flushed_eq (c : Dev nD) (t : Fin cfg1.N) :
    (dat1 V c).flushed 3 t
      = ((cfg1.win 3).blk t).view.read (Elt Ideal) (Cert.Layer.affine (V c main_v70) (V c main_arg5) (V c main_v72)) := by
  show (cfg1.win 3).cut (grid1.coords t) ((dat1 V c).after 3 t) = _
  rw [after1_3, blk_weights V c t, blk_bias V c t]
  obtain ⟨-, -, -, -, -, -, e6, e7⟩ := idx_facts t
  funext j
  rw [View.read_apply]
  refine block_entry (iblk1 V c 0 t) (V c main_v70) (V c main_arg5) (V c main_v72) j (((cfg1.win 3).blk t).view.emb j) (fun s => ?_) ?_
  · refine blk_rows V c t (ix2 (j 0) s) (ix2 ((((cfg1.win 3).blk t).view.emb j) 0) s) ?_ rfl
    show win1_3.index t (0 : Fin 2) * 8000 + 1 * (j 0).val = t.val * 8000 + (j 0).val
    rw [e6]; omega
  · show win1_3.index t (1 : Fin 2) * 128 + 1 * (j 1).val = (j 1).val
    rw [e7]; omega

/-- An index of the result is in point t's block iff each coordinate is in the block's range on its axis. -/
theorem mem_blk (t : Fin cfg1.N) (i : S640000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v73).slice (win1_3.rect t)).set ↔ _
  rw [View.set_slice_whole, Rect.mem_set_unit]
  exact Iff.rfl

/-- The result array when the region is left: the layer of the arrays the region found, everywhere (row i lies in
    the block of point i / 8000). -/
theorem result (c : Dev nD) :
    (dat1 V c).arrAt 3 cfg1.N = Cert.Layer.affine (V c main_v70) (V c main_arg5) (V c main_v72) :=
  (dat1 V c).arrAt_eq_of_cover 3 _ (fun t _ => flushed_eq V c t) fun i => by
    have hN : grid1.N = 80 := N_1
    have hi0 : (i 0).val < 640000 := (i 0).isLt
    have hi1 : (i 1).val < 128 := (i 1).isLt
    have hlt : (i 0).val / 8000 < cfg1.N := by show (i 0).val / 8000 < grid1.N; rw [hN]; omega
    obtain ⟨-, -, -, -, -, -, e6, e7⟩ := idx_facts ⟨(i 0).val / 8000, hlt⟩
    refine ⟨⟨(i 0).val / 8000, hlt⟩, flush1_3 _, ?_⟩
    rw [mem_blk]
    intro a
    match a with
    | ⟨0, _⟩ =>
      show win1_3.index ⟨(i 0).val / 8000, hlt⟩ (0 : Fin 2) * 8000 ≤ (i 0).val
        ∧ (i 0).val < win1_3.index ⟨(i 0).val / 8000, hlt⟩ (0 : Fin 2) * 8000 + 8000
      rw [e6]; show (i 0).val / 8000 * 8000 ≤ (i 0).val ∧ (i 0).val < (i 0).val / 8000 * 8000 + 8000; omega
    | ⟨1, _⟩ =>
      show win1_3.index ⟨(i 0).val / 8000, hlt⟩ (1 : Fin 2) * 128 ≤ (i 1).val
        ∧ (i 1).val < win1_3.index ⟨(i 0).val / 8000, hlt⟩ (1 : Fin 2) * 128 + 128
      rw [e7]; omega

end Cert.KernelIdeal.Layer1

end
-- ==== Proof.Layer2.lean ====
/- Region 2 of the kernel program, as a function of whole arrays at the ideal instance. The grid has 80 points;
   point t reads rows 8000·t … 8000·t + 7999 of the 640000-row operand, the whole weight matrix and the whole bias row, and
   writes the same rows of the result. On a block the body computes the rows of X · W plus the bias row;
   entry (i, j) of that depends on row i of X only, so every block is the restriction of one whole-array function,
   and the 80 blocks tile the result. -/
import proofs.«130927_j36593121362364_2_alg».proof.Proof.Gen.KernelIdeal.Frame
import proofs.«130927_j36593121362364_2_alg».proof.Proof.Affine
import Idealize.ShloMosaic.Lib.Pipeline.Value
import Idealize.ShloMosaic.Lib.ValueIdx

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output block, at an entry: the layer applied to the loaded blocks. -/
theorem out_read (x0 : Vec Ideal S8000x128 .f32) (x1 : Vec Ideal S128x128 .f32) (x2 : Vec Ideal S1x128 .f32)
    (p : Fin 8000) (q : Fin 128) :
    out2_3 x0 x1 x2 (ix2 p q) = Cert.Layer.affine x0 x1 x2 (ix2 p q) := by
  unfold out2_3
  rw [View.canon_unit_zero hz]
  simp only [View.ld_unit_zero (S := S8000x128) hz, View.ld_unit_zero (S := S128x128) hz, View.ld_unit_zero (S := S1x128) hz]
  unfold k2_pay1
  rw [shapeCast_self x0]
  exact Cert.Layer.body_affine x0 x1 x2 _ _ _ _ p q

/-- An entry of the output block depends on one row of the row operand: if that row is row i₀ of a whole array X,
    the entry is the layer of X at (i₀, the same column). -/
theorem block_entry (x0 : Vec Ideal S8000x128 .f32) (X : Vec Ideal S640000x128 .f32) (W : Vec Ideal S128x128 .f32)
    (B : Vec Ideal S1x128 .f32) (j : S8000x128.Idx) (i : S640000x128.Idx)
    (hrow : ∀ t : Fin 128, x0 (ix2 (j 0) t) = X (ix2 (i 0) t)) (hcol : (i 1).val = (j 1).val) :
    out2_3 x0 W B j = Cert.Layer.affine X W B i := by
  obtain ⟨p, q, rfl⟩ : ∃ (p : Fin 8000) (q : Fin 128), j = ix2 p q := ⟨j 0, j 1, eq_ix2 j⟩
  obtain ⟨p', q', rfl⟩ : ∃ (p' : Fin 640000) (q' : Fin 128), i = ix2 p' q' := ⟨i 0, i 1, eq_ix2 i⟩
  obtain rfl : q' = q := Fin.ext hcol
  rw [out_read]
  exact Cert.Layer.affine_congr_row x0 X W B p p' q' hrow

/-- The printed index maps over the grid: the row operand and the result move down one block per point, the weight
    matrix and the bias row stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The weight matrix's block is the matrix, at every point. -/
theorem blk_weights (c : Dev nD) (t : Fin cfg2.N) : iblk2 V c 1 t = V c main_arg9 := by
  obtain ⟨-, -, e2, e3, -, -, -, -⟩ := idx_facts t
  funext y
  unfold iblk2
  rw [View.read_apply]
  show V c main_arg9 (((cfg2.win 1).blk t).view.emb y) = V c main_arg9 y
  refine congrArg _ (funext fun a => Fin.ext ?_)
  match a with
  | ⟨0, _⟩ => show win2_1.index t (0 : Fin 2) * 128 + 1 * (y 0).val = (y 0).val; rw [e2]; omega
  | ⟨1, _⟩ => show win2_1.index t (1 : Fin 2) * 128 + 1 * (y 1).val = (y 1).val; rw [e3]; omega

/-- The bias row's block is the row, at every point. -/
theorem blk_bias (c : Dev nD) (t : Fin cfg2.N) : iblk2 V c 2 t = V c main_v117 := by
  obtain ⟨-, -, -, -, e4, e5, -, -⟩ := idx_facts t
  funext y
  unfold iblk2
  rw [View.read_apply]
  show V c main_v117 (((cfg2.win 2).blk t).view.emb y) = V c main_v117 y
  refine congrArg _ (funext fun a => Fin.ext ?_)
  match a with
  | ⟨0, _⟩ => show win2_2.index t (0 : Fin 2) * 1 + 1 * (y 0).val = (y 0).val; rw [e4]; omega
  | ⟨1, _⟩ => show win2_2.index t (1 : Fin 2) * 128 + 1 * (y 1).val = (y 1).val; rw [e5]; omega

/-- The row operand's block at point t, at (r, s), is the operand at (8000·t + r, s). -/
theorem blk_rows (c : Dev nD) (t : Fin cfg2.N) (y : S8000x128.Idx) (i : S640000x128.Idx)
    (h0 : (i 0).val = t.val * 8000 + (y 0).val) (h1 : (i 1).val = (y 1).val) :
    (iblk2 V c 0 t : Vec Ideal S8000x128 .f32) y = (V c main_v116 : S640000x128.Idx → Elt Ideal .f32) i := by
  obtain ⟨e0, e1, -, -, -, -, -, -⟩ := idx_facts t
  unfold iblk2
  rw [View.read_apply]
  show V c main_v116 (((cfg2.win 0).blk t).view.emb y) = V c main_v116 i
  refine congrArg _ (funext fun a => Fin.ext ?_)
  match a with
  | ⟨0, _⟩ => show win2_0.index t (0 : Fin 2) * 8000 + 1 * (y 0).val = (i 0).val; rw [e0, h0]; omega
  | ⟨1, _⟩ => show win2_0.index t (1 : Fin 2) * 128 + 1 * (y 1).val = (i 1).val; rw [e1, h1]; omega

/-- What point t writes back is block t of the layer of the whole arrays as the region finds them. -/
theorem flushed_eq (c : Dev nD) (t : Fin cfg2.N) :
    (dat2 V c).flushed 3 t
      = ((cfg2.win 3).blk t).view.read (Elt Ideal) (Cert.Layer.affine (V c main_v116) (V c main_arg9) (V c main_v117)) := by
  show (cfg2.win 3).cut (grid2.coords t) ((dat2 V c).after 3 t) = _
  rw [after2_3, blk_weights V c t, blk_bias V c t]
  obtain ⟨-, -, -, -, -, -, e6, e7⟩ := idx_facts t
  funext j
  rw [View.read_apply]
  refine block_entry (iblk2 V c 0 t) (V c main_v116) (V c main_arg9) (V c main_v117) j (((cfg2.win 3).blk t).view.emb j) (fun s => ?_) ?_
  · refine blk_rows V c t (ix2 (j 0) s) (ix2 ((((cfg2.win 3).blk t).view.emb j) 0) s) ?_ rfl
    show win2_3.index t (0 : Fin 2) * 8000 + 1 * (j 0).val = t.val * 8000 + (j 0).val
    rw [e6]; omega
  · show win2_3.index t (1 : Fin 2) * 128 + 1 * (j 1).val = (j 1).val
    rw [e7]; omega

/-- An index of the result is in point t's block iff each coordinate is in the block's range on its axis. -/
theorem mem_blk (t : Fin cfg2.N) (i : S640000x128.Idx) :
    i ∈ ((cfg2.win 3).blk t).view.set ↔ ∀ a : Fin 2, win2_3.index t a * S8000x128.size a ≤ (i a).val
      ∧ (i a).val < win2_3.index t a * S8000x128.size a + S8000x128.size a := by
  show i ∈ ((View.whole main_v118).slice (win2_3.rect t)).set ↔ _
  rw [View.set_slice_whole, Rect.mem_set_unit]
  exact Iff.rfl

/-- The result array when the region is left: the layer of the arrays the region found, everywhere (row i lies in
    the block of point i / 8000). -/
theorem result (c : Dev nD) :
    (dat2 V c).arrAt 3 cfg2.N = Cert.Layer.affine (V c main_v116) (V c main_arg9) (V c main_v117) :=
  (dat2 V c).arrAt_eq_of_cover 3 _ (fun t _ => flushed_eq V c t) fun i => by
    have hN : grid2.N = 80 := N_2
    have hi0 : (i 0).val < 640000 := (i 0).isLt
    have hi1 : (i 1).val < 128 := (i 1).isLt
    have hlt : (i 0).val / 8000 < cfg2.N := by show (i 0).val / 8000 < grid2.N; rw [hN]; omega
    obtain ⟨-, -, -, -, -, -, e6, e7⟩ := idx_facts ⟨(i 0).val / 8000, hlt⟩
    refine ⟨⟨(i 0).val / 8000, hlt⟩, flush2_3 _, ?_⟩
    rw [mem_blk]
    intro a
    match a with
    | ⟨0, _⟩ =>
      show win2_3.index ⟨(i 0).val / 8000, hlt⟩ (0 : Fin 2) * 8000 ≤ (i 0).val
        ∧ (i 0).val < win2_3.index ⟨(i 0).val / 8000, hlt⟩ (0 : Fin 2) * 8000 + 8000
      rw [e6]; show (i 0).val / 8000 * 8000 ≤ (i 0).val ∧ (i 0).val < (i 0).val / 8000 * 8000 + 8000; omega
    | ⟨1, _⟩ =>
      show win2_3.index ⟨(i 0).val / 8000, hlt⟩ (1 : Fin 2) * 128 ≤ (i 1).val
        ∧ (i 1).val < win2_3.index ⟨(i 0).val / 8000, hlt⟩ (1 : Fin 2) * 128 + 128
      rw [e7]; omega

end Cert.KernelIdeal.Layer2

end
-- ==== Proof.Layer3.lean ====
/- Region 3 of the kernel program, as a function of whole arrays at the ideal instance. The grid has 10 points;
   point t reads rows 2000·t … 2000·t + 1999 of the 20000-row operand, the whole weight matrix and the whole bias row, and
   writes the same rows of the result. On a block the body computes the rows of X · W plus the bias row, bounded below by zero;
   entry (i, j) of that depends on row i of X only, so every block is the restriction of one whole-array function,
   and the 10 blocks tile the result. -/
import proofs.«130927_j36593121362364_2_alg».proof.Proof.Gen.KernelIdeal.Frame
import proofs.«130927_j36593121362364_2_alg».proof.Proof.Affine
import Idealize.ShloMosaic.Lib.Pipeline.Value
import Idealize.ShloMosaic.Lib.ValueIdx

set_option maxRecDepth 16384

noncomputable section

namespace Cert.KernelIdeal.Layer3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output block, at an entry: the layer applied to the loaded blocks. -/
theorem out_read (x0 : Vec Ideal S2000x128 .f32) (x1 : Vec Ideal S128x128 .f32) (x2 : Vec Ideal S1x128 .f32)
    (p : Fin 2000) (q : Fin 128) :
    out3_3 x0 x1 x2 (ix2 p q) = Cert.Layer.affineFloor x0 x1 x2 (Scalar.ofBits (F := Ideal) .f32 0x00000000#32) (ix2 p q) := by
  unfold out3_3
  rw [View.canon_unit_zero hz]
  simp only [View.ld_unit_zero (S := S2000x128) hz, View.ld_unit_zero (S := S128x128) hz, View.ld_unit_zero (S := S1x128) hz]
  unfold k3_pay1
  rw [shapeCast_self x0]
  exact Cert.Layer.body_affineFloor x0 x1 x2 _ _ _ _ _ p q

/-- An entry of the output block depends on one row of the row operand: if that row is row i₀ of a whole array X,
    the entry is the layer of X at (i₀, the same column). -/
theorem block_entry (x0 : Vec Ideal S2000x128 .f32) (X : Vec Ideal S20000x128 .f32) (W : Vec Ideal S128x128 .f32)
    (B : Vec Ideal S1x128 .f32) (j : S2000x128.Idx) (i : S20000x128.Idx)
    (hrow : ∀ t : Fin 128, x0 (ix2 (j 0) t) = X (ix2 (i 0) t)) (hcol : (i 1).val = (j 1).val) :
    out3_3 x0 W B j = Cert.Layer.affineFloor X W B (Scalar.ofBits (F := Ideal) .f32 0x00000000#32) i := by
  obtain ⟨p, q, rfl⟩ : ∃ (p : Fin 2000) (q : Fin 128), j = ix2 p q := ⟨j 0, j 1, eq_ix2 j⟩
  obtain ⟨p', q', rfl⟩ : ∃ (p' : Fin 20000) (q' : Fin 128), i = ix2 p' q' := ⟨i 0, i 1, eq_ix2 i⟩
  obtain rfl : q' = q := Fin.ext hcol
  rw [out_read]
  show max (Cert.Layer.affine x0 W B (ix2 p q')) _ = max (Cert.Layer.affine X W B (ix2 p' q')) _
  rw [Cert.Layer.affine_congr_row x0 X W B p p' q' hrow]

/-- The printed index maps over the grid: the row operand and the result move down one block per point, the weight
    matrix and the bias row stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The weight matrix's block is the matrix, at every point. -/
theorem blk_weights (c : Dev nD) (t : Fin cfg3.N) : iblk3 V c 1 t = V c main_arg7 := by
  obtain ⟨-, -, e2, e3, -, -, -, -⟩ := idx_facts t
  funext y
  unfold iblk3
  rw [View.read_apply]
  show V c main_arg7 (((cfg3.win 1).blk t).view.emb y) = V c main_arg7 y
  refine congrArg _ (funext fun a => Fin.ext ?_)
  match a with
  | ⟨0, _⟩ => show win3_1.index t (0 : Fin 2) * 128 + 1 * (y 0).val = (y 0).val; rw [e2]; omega
  | ⟨1, _⟩ => show win3_1.index t (1 : Fin 2) * 128 + 1 * (y 1).val = (y 1).val; rw [e3]; omega

/-- The bias row's block is the row, at every point. -/
theorem blk_bias (c : Dev nD) (t : Fin cfg3.N) : iblk3 V c 2 t = V c main_v127 := by
  obtain ⟨-, -, -, -, e4, e5, -, -⟩ := idx_facts t
  funext y
  unfold iblk3
  rw [View.read_apply]
  show V c main_v127 (((cfg3.win 2).blk t).view.emb y) = V c main_v127 y
  refine congrArg _ (funext fun a => Fin.ext ?_)
  match a with
  | ⟨0, _⟩ => show win3_2.index t (0 : Fin 2) * 1 + 1 * (y 0).val = (y 0).val; rw [e4]; omega
  | ⟨1, _⟩ => show win3_2.index t (1 : Fin 2) * 128 + 1 * (y 1).val = (y 1).val; rw [e5]; omega

/-- The row operand's block at point t, at (r, s), is the operand at (2000·t + r, s). -/
theorem blk_rows (c : Dev nD) (t : Fin cfg3.N) (y : S2000x128.Idx) (i : S20000x128.Idx)
    (h0 : (i 0).val = t.val * 2000 + (y 0).val) (h1 : (i 1).val = (y 1).val) :
    (iblk3 V c 0 t : Vec Ideal S2000x128 .f32) y = (V c main_v126 : S20000x128.Idx → Elt Ideal .f32) i := by
  obtain ⟨e0, e1, -, -, -, -, -, -⟩ := idx_facts t
  unfold iblk3
  rw [View.read_apply]
  show V c main_v126 (((cfg3.win 0).blk t).view.emb y) = V c main_v126 i
  refine congrArg _ (funext fun a => Fin.ext ?_)
  match a with
  | ⟨0, _⟩ => show win3_0.index t (0 : Fin 2) * 2000 + 1 * (y 0).val = (i 0).val; rw [e0, h0]; omega
  | ⟨1, _⟩ => show win3_0.index t (1 : Fin 2) * 128 + 1 * (y 1).val = (i 1).val; rw [e1, h1]; omega

/-- What point t writes back is block t of the layer of the whole arrays as the region finds them. -/
theorem flushed_eq (c : Dev nD) (t : Fin cfg3.N) :
    (dat3 V c).flushed 3 t
      = ((cfg3.win 3).blk t).view.read (Elt Ideal) (Cert.Layer.affineFloor (V c main_v126) (V c main_arg7) (V c main_v127) (Scalar.ofBits (F := Ideal) .f32 0x00000000#32)) := by
  show (cfg3.win 3).cut (grid3.coords t) ((dat3 V c).after 3 t) = _
  rw [after3_3, blk_weights V c t, blk_bias V c t]
  obtain ⟨-, -, -, -, -, -, e6, e7⟩ := idx_facts t
  funext j
  rw [View.read_apply]
  refine block_entry (iblk3 V c 0 t) (V c main_v126) (V c main_arg7) (V c main_v127) j (((cfg3.win 3).blk t).view.emb j) (fun s => ?_) ?_
  · refine blk_rows V c t (ix2 (j 0) s) (ix2 ((((cfg3.win 3).blk t).view.emb j) 0) s) ?_ rfl
    show win3_3.index t (0 : Fin 2) * 2000 + 1 * (j 0).val = t.val * 2000 + (j 0).val
    rw [e6]; omega
  · show win3_3.index t (1 : Fin 2) * 128 + 1 * (j 1).val = (j 1).val
    rw [e7]; omega

/-- An index of the result is in point t's block iff each coordinate is in the block's range on its axis. -/
theorem mem_blk (t : Fin cfg3.N) (i : S20000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v128).slice (win3_3.rect t)).set ↔ _
  rw [View.set_slice_whole, Rect.mem_set_unit]
  exact Iff.rfl

/-- The result array when the region is left: the layer of the arrays the region found, everywhere (row i lies in
    the block of point i / 2000). -/
theorem result (c : Dev nD) :
    (dat3 V c).arrAt 3 cfg3.N = Cert.Layer.affineFloor (V c main_v126) (V c main_arg7) (V c main_v127) (Scalar.ofBits (F := Ideal) .f32 0x00000000#32) :=
  (dat3 V c).arrAt_eq_of_cover 3 _ (fun t _ => flushed_eq V c t) fun i => by
    have hN : grid3.N = 10 := N_3
    have hi0 : (i 0).val < 20000 := (i 0).isLt
    have hi1 : (i 1).val < 128 := (i 1).isLt
    have hlt : (i 0).val / 2000 < cfg3.N := by show (i 0).val / 2000 < grid3.N; rw [hN]; omega
    obtain ⟨-, -, -, -, -, -, e6, e7⟩ := idx_facts ⟨(i 0).val / 2000, hlt⟩
    refine ⟨⟨(i 0).val / 2000, hlt⟩, flush3_3 _, ?_⟩
    rw [mem_blk]
    intro a
    match a with
    | ⟨0, _⟩ =>
      show win3_3.index ⟨(i 0).val / 2000, hlt⟩ (0 : Fin 2) * 2000 ≤ (i 0).val
        ∧ (i 0).val < win3_3.index ⟨(i 0).val / 2000, hlt⟩ (0 : Fin 2) * 2000 + 2000
      rw [e6]; show (i 0).val / 2000 * 2000 ≤ (i 0).val ∧ (i 0).val < (i 0).val / 2000 * 2000 + 2000; omega
    | ⟨1, _⟩ =>
      show win3_3.index ⟨(i 0).val / 2000, hlt⟩ (1 : Fin 2) * 128 ≤ (i 1).val
        ∧ (i 1).val < win3_3.index ⟨(i 0).val / 2000, hlt⟩ (1 : Fin 2) * 128 + 128
      rw [e7]; omega

end Cert.KernelIdeal.Layer3

end
-- ==== Proof.Boundaries.lean ====
/- The kernel program's buffers at its segment boundaries, as functions of the arguments at launch — stated against
   the reference program's stages, which are the same functions. Boundary by boundary: a host stretch is read through
   (HostStretches), a region leaves its layer of the arrays it found (Layer0 … Layer3), and every other buffer is kept.
   Two of the four layers have a zero bias row, so they are the host's matrix product alone; the other two add a bias
   vector that the kernel program makes into a row by a cast and the reference by a broadcast — the same row. -/
import proofs.«130927_j36593121362364_2_alg».proof.Proof.Gen.KernelIdeal.Frame
import proofs.«130927_j36593121362364_2_alg».proof.Proof.HostStretches
import proofs.«130927_j36593121362364_2_alg».proof.Proof.Layer0
import proofs.«130927_j36593121362364_2_alg».proof.Proof.Layer1
import proofs.«130927_j36593121362364_2_alg».proof.Proof.Layer2
import proofs.«130927_j36593121362364_2_alg».proof.Proof.Layer3
import proofs.«130927_j36593121362364_2_alg».proof.Proof.Affine
import proofs.«130927_j36593121362364_2_alg».proof.Proof.Sums

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 0's entry -/

theorem b1_arg0 : W1 m ρ c (Proc.devRef .tc main_arg0) = (m ((c : Thread nD τ).loc main_arg0)) :=
  Cert.KernelIdeal.Stretch.g0_keep_arg0 (W0 m ρ c)
theorem b1_arg1 : W1 m ρ c (Proc.devRef .tc main_arg1) = (m ((c : Thread nD τ).loc main_arg1)) :=
  Cert.KernelIdeal.Stretch.g0_keep_arg1 (W0 m ρ c)
theorem b1_arg2 : W1 m ρ c (Proc.devRef .tc main_arg2) = (m ((c : Thread nD τ).loc main_arg2)) :=
  Cert.KernelIdeal.Stretch.g0_keep_arg2 (W0 m ρ c)
theorem b1_arg3 : W1 m ρ c (Proc.devRef .tc main_arg3) = (m ((c : Thread nD τ).loc main_arg3)) :=
  Cert.KernelIdeal.Stretch.g0_keep_arg3 (W0 m ρ c)
theorem b1_arg4 : W1 m ρ c (Proc.devRef .tc main_arg4) = (m ((c : Thread nD τ).loc main_arg4)) :=
  Cert.KernelIdeal.Stretch.g0_keep_arg4 (W0 m ρ c)
theorem b1_arg5 : W1 m ρ c (Proc.devRef .tc main_arg5) = (m ((c : Thread nD τ).loc main_arg5)) :=
  Cert.KernelIdeal.Stretch.g0_keep_arg5 (W0 m ρ c)
theorem b1_arg6 : W1 m ρ c (Proc.devRef .tc main_arg6) = (m ((c : Thread nD τ).loc main_arg6)) :=
  Cert.KernelIdeal.Stretch.g0_keep_arg6 (W0 m ρ c)
theorem b1_arg7 : W1 m ρ c (Proc.devRef .tc main_arg7) = (m ((c : Thread nD τ).loc main_arg7)) :=
  Cert.KernelIdeal.Stretch.g0_keep_arg7 (W0 m ρ c)
theorem b1_arg8 : W1 m ρ c (Proc.devRef .tc main_arg8) = (m ((c : Thread nD τ).loc main_arg8)) :=
  Cert.KernelIdeal.Stretch.g0_keep_arg8 (W0 m ρ c)
theorem b1_arg9 : W1 m ρ c (Proc.devRef .tc main_arg9) = (m ((c : Thread nD τ).loc main_arg9)) :=
  Cert.KernelIdeal.Stretch.g0_keep_arg9 (W0 m ρ c)
theorem b1_arg10 : W1 m ρ c (Proc.devRef .tc main_arg10) = (m ((c : Thread nD τ).loc main_arg10)) :=
  Cert.KernelIdeal.Stretch.g0_keep_arg10 (W0 m ρ c)

theorem b1_v1 : W1 m ρ c (Proc.devRef .tc main_v1) = Cert.ReferenceIdeal.ReadP.val_main_v1 (F := Ideal) (m ((c : Thread nD τ).loc main_arg1)) :=
  Cert.KernelIdeal.Stretch.g0_v1 (W0 m ρ c) (m ((c : Thread nD τ).loc main_arg1)) rfl
theorem b1_v3 : W1 m ρ c (Proc.devRef .tc main_v3) = Cert.ReferenceIdeal.ReadP.val_main_v3 (F := Ideal) (m ((c : Thread nD τ).loc main_arg1)) :=
  Cert.KernelIdeal.Stretch.g0_v3 (W0 m ρ c) (m ((c : Thread nD τ).loc main_arg1)) rfl
theorem b1_v5 : W1 m ρ c (Proc.devRef .tc main_v5) = Cert.ReferenceIdeal.ReadP.val_main_v72 (F := Ideal) (m ((c : Thread nD τ).loc main_arg2)) :=
  Cert.KernelIdeal.Stretch.g0_v5 (W0 m ρ c) (m ((c : Thread nD τ).loc main_arg2)) rfl
theorem b1_v7 : W1 m ρ c (Proc.devRef .tc main_v7) = Cert.ReferenceIdeal.ReadP.val_main_v75 (F := Ideal) (m ((c : Thread nD τ).loc main_arg2)) :=
  Cert.KernelIdeal.Stretch.g0_v7 (W0 m ρ c) (m ((c : Thread nD τ).loc main_arg2)) rfl
theorem b1_v9 : W1 m ρ c (Proc.devRef .tc main_v9) = shapeCast S1x128 (broadcastInDim S128 ![] bcast_S_S128 (constant (F := Ideal) S_ .f32 0x00000000#32)) shapeCasts_S128_S1x128 :=
  Cert.KernelIdeal.Stretch.g0_v9 (W0 m ρ c)

/-! ## Region 0's exit -/

/-- Region 0 leaves the product of the rows it found with the weight matrix: its bias row is zero, and s + 0 = s. -/
theorem b2_v10 : W2 m ρ c (Proc.devRef .tc main_v10) = Cert.ReferenceIdeal.ReadP.val_main_v4 (F := Ideal) (m ((c : Thread nD τ).loc main_arg0)) (m ((c : Thread nD τ).loc main_arg3)) := by
  refine (W2_arr m ρ c 3).trans ?_
  refine (Cert.KernelIdeal.Layer0.result (V1 m ρ) c).trans ?_
  have e0 : V1 m ρ c main_arg0 = (m ((c : Thread nD τ).loc main_arg0)) := b1_arg0 m ρ c
  have e1 : V1 m ρ c main_arg3 = (m ((c : Thread nD τ).loc main_arg3)) := b1_arg3 m ρ c
  have e2 : V1 m ρ c main_v9 = shapeCast S1x128 (broadcastInDim S128 ![] bcast_S_S128 (constant (F := Ideal) S_ .f32 0x00000000#32)) shapeCasts_S128_S1x128 := b1_v9 m ρ c
  rw [e0, e1, e2]
  exact Cert.Layer.affine_zero_bias _ _ _ (fun q => Cert.Sums.zero_row_read _ _ q)

theorem b2_v1 : W2 m ρ c (Proc.devRef .tc main_v1) = Cert.ReferenceIdeal.ReadP.val_main_v1 (F := Ideal) (m ((c : Thread nD τ).loc main_arg1)) :=
  (W2_of_ne m ρ c main_v1 (by decide)).trans (b1_v1 m ρ c)
theorem b2_v3 : W2 m ρ c (Proc.devRef .tc main_v3) = Cert.ReferenceIdeal.ReadP.val_main_v3 (F := Ideal) (m ((c : Thread nD τ).loc main_arg1)) :=
  (W2_of_ne m ρ c main_v3 (by decide)).trans (b1_v3 m ρ c)
theorem b2_v5 : W2 m ρ c (Proc.devRef .tc main_v5) = Cert.ReferenceIdeal.ReadP.val_main_v72 (F := Ideal) (m ((c : Thread nD τ).loc main_arg2)) :=
  (W2_of_ne m ρ c main_v5 (by decide)).trans (b1_v5 m ρ c)
theorem b2_v7 : W2 m ρ c (Proc.devRef .tc main_v7) = Cert.ReferenceIdeal.ReadP.val_main_v75 (F := Ideal) (m ((c : Thread nD τ).loc main_arg2)) :=
  (W2_of_ne m ρ c main_v7 (by decide)).trans (b1_v7 m ρ c)
theorem b2_arg4 : W2 m ρ c (Proc.devRef .tc main_arg4) = (m ((c : Thread nD τ).loc main_arg4)) :=
  (W2_of_ne m ρ c main_arg4 (by decide)).trans (b1_arg4 m ρ c)
theorem b2_arg5 : W2 m ρ c (Proc.devRef .tc main_arg5) = (m ((c : Thread nD τ).loc main_arg5)) :=
  (W2_of_ne m ρ c main_arg5 (by decide)).trans (b1_arg5 m ρ c)
theorem b2_arg6 : W2 m ρ c (Proc.devRef .tc main_arg6) = (m ((c : Thread nD τ).loc main_arg6)) :=
  (W2_of_ne m ρ c main_arg6 (by decide)).trans (b1_arg6 m ρ c)
theorem b2_arg7 : W2 m ρ c (Proc.devRef .tc main_arg7) = (m ((c : Thread nD τ).loc main_arg7)) :=
  (W2_of_ne m ρ c main_arg7 (by decide)).trans (b1_arg7 m ρ c)
theorem b2_arg8 : W2 m ρ c (Proc.devRef .tc main_arg8) = (m ((c : Thread nD τ).loc main_arg8)) :=
  (W2_of_ne m ρ c main_arg8 (by decide)).trans (b1_arg8 m ρ c)
theorem b2_arg9 : W2 m ρ c (Proc.devRef .tc main_arg9) = (m ((c : Thread nD τ).loc main_arg9)) :=
  (W2_of_ne m ρ c main_arg9 (by decide)).trans (b1_arg9 m ρ c)
theorem b2_arg10 : W2 m ρ c (Proc.devRef .tc main_arg10) = (m ((c : Thread nD τ).loc main_arg10)) :=
  (W2_of_ne m ρ c main_arg10 (by decide)).trans (b1_arg10 m ρ c)

/-! ## Region 1's entry -/

theorem b6_v53 : W6 m ρ c (Proc.devRef .tc main_v53) = Cert.ReferenceIdeal.ReadP.val_main_v51 (F := Ideal) (m ((c : Thread nD τ).loc main_arg0)) (m ((c : Thread nD τ).loc main_arg1)) (m ((c : Thread nD τ).loc main_arg3)) (m ((c : Thread nD τ).loc main_arg4)) :=
  Cert.KernelIdeal.Stretch.g1_v53 (W2 m ρ c) (m ((c : Thread nD τ).loc main_arg0)) (m ((c : Thread nD τ).loc main_arg1)) (m ((c : Thread nD τ).loc main_arg3)) (m ((c : Thread nD τ).loc main_arg4)) (b2_v10 m ρ c) (b2_v1 m ρ c) (b2_v3 m ρ c) (b2_arg4 m ρ c)
theorem b6_v1 : W6 m ρ c (Proc.devRef .tc main_v1) = Cert.ReferenceIdeal.ReadP.val_main_v1 (F := Ideal) (m ((c : Thread nD τ).loc main_arg1)) :=
  (Cert.KernelIdeal.Stretch.g1_keep_v1 (W2 m ρ c)).trans (b2_v1 m ρ c)
theorem b6_v3 : W6 m ρ c (Proc.devRef .tc main_v3) = Cert.ReferenceIdeal.ReadP.val_main_v3 (F := Ideal) (m ((c : Thread nD τ).loc main_arg1)) :=
  (Cert.KernelIdeal.Stretch.g1_keep_v3 (W2 m ρ c)).trans (b2_v3 m ρ c)
theorem b6_v5 : W6 m ρ c (Proc.devRef .tc main_v5) = Cert.ReferenceIdeal.ReadP.val_main_v72 (F := Ideal) (m ((c : Thread nD τ).loc main_arg2)) :=
  (Cert.KernelIdeal.Stretch.g1_keep_v5 (W2 m ρ c)).trans (b2_v5 m ρ c)
theorem b6_v7 : W6 m ρ c (Proc.devRef .tc main_v7) = Cert.ReferenceIdeal.ReadP.val_main_v75 (F := Ideal) (m ((c : Thread nD τ).loc main_arg2)) :=
  (Cert.KernelIdeal.Stretch.g1_keep_v7 (W2 m ρ c)).trans (b2_v7 m ρ c)
theorem b6_arg5 : W6 m ρ c (Proc.devRef .tc main_arg5) = (m ((c : Thread nD τ).loc main_arg5)) :=
  (Cert.KernelIdeal.Stretch.g1_keep_arg5 (W2 m ρ c)).trans (b2_arg5 m ρ c)
theorem b6_arg6 : W6 m ρ c (Proc.devRef .tc main_arg6) = (m ((c : Thread nD τ).loc main_arg6)) :=
  (Cert.KernelIdeal.Stretch.g1_keep_arg6 (W2 m ρ c)).trans (b2_arg6 m ρ c)
theorem b6_arg7 : W6 m ρ c (Proc.devRef .tc main_arg7) = (m ((c : Thread nD τ).loc main_arg7)) :=
  (Cert.KernelIdeal.Stretch.g1_keep_arg7 (W2 m ρ c)).trans (b2_arg7 m ρ c)
theorem b6_arg8 : W6 m ρ c (Proc.devRef .tc main_arg8) = (m ((c : Thread nD τ).loc main_arg8)) :=
  (Cert.KernelIdeal.Stretch.g1_keep_arg8 (W2 m ρ c)).trans (b2_arg8 m ρ c)
theorem b6_arg9 : W6 m ρ c (Proc.devRef .tc main_arg9) = (m ((c : Thread nD τ).loc main_arg9)) :=
  (Cert.KernelIdeal.Stretch.g1_keep_arg9 (W2 m ρ c)).trans (b2_arg9 m ρ c)
theorem b6_arg10 : W6 m ρ c (Proc.devRef .tc main_arg10) = (m ((c : Thread nD τ).loc main_arg10)) :=
  (Cert.KernelIdeal.Stretch.g1_keep_arg10 (W2 m ρ c)).trans (b2_arg10 m ρ c)

theorem b7_v70 : W7 m ρ c (Proc.devRef .tc main_v70) = Cert.ReferenceIdeal.ReadP.val_main_v68 (F := Ideal) (m ((c : Thread nD τ).loc main_arg0)) (m ((c : Thread nD τ).loc main_arg1)) (m ((c : Thread nD τ).loc main_arg3)) (m ((c : Thread nD τ).loc main_arg4)) :=
  Cert.KernelIdeal.Stretch.g1b_v70 (W6 m ρ c) (m ((c : Thread nD τ).loc main_arg0)) (m ((c : Thread nD τ).loc main_arg1)) (m ((c : Thread nD τ).loc main_arg3)) (m ((c : Thread nD τ).loc main_arg4)) (b6_v53 m ρ c) (b6_v1 m ρ c) (b6_v3 m ρ c)
theorem b7_v72 : W7 m ρ c (Proc.devRef .tc main_v72) = shapeCast S1x128 (broadcastInDim S128 ![] bcast_S_S128 (constant (F := Ideal) S_ .f32 0x00000000#32)) shapeCasts_S128_S1x128 :=
  Cert.KernelIdeal.Stretch.g1b_v72 (W6 m ρ c)
theorem b7_v53 : W7 m ρ c (Proc.devRef .tc main_v53) = Cert.ReferenceIdeal.ReadP.val_main_v51 (F := Ideal) (m ((c : Thread nD τ).loc main_arg0)) (m ((c : Thread nD τ).loc main_arg1)) (m ((c : Thread nD τ).loc main_arg3)) (m ((c : Thread nD τ).loc main_arg4)) :=
  (Cert.KernelIdeal.Stretch.g1b_keep_v53 (W6 m ρ c)).trans (b6_v53 m ρ c)
theorem b7_v1 : W7 m ρ c (Proc.devRef .tc main_v1) = Cert.ReferenceIdeal.ReadP.val_main_v1 (F := Ideal) (m ((c : Thread nD τ).loc main_arg1)) :=
  (Cert.KernelIdeal.Stretch.g1b_keep_v1 (W6 m ρ c)).trans (b6_v1 m ρ c)
theorem b7_v3 : W7 m ρ c (Proc.devRef .tc main_v3) = Cert.ReferenceIdeal.ReadP.val_main_v3 (F := Ideal) (m ((c : Thread nD τ).loc main_arg1)) :=
  (Cert.KernelIdeal.Stretch.g1b_keep_v3 (W6 m ρ c)).trans (b6_v3 m ρ c)
theorem b7_v5 : W7 m ρ c (Proc.devRef .tc main_v5) = Cert.ReferenceIdeal.ReadP.val_main_v72 (F := Ideal) (m ((c : Thread nD τ).loc main_arg2)) :=
  (Cert.KernelIdeal.Stretch.g1b_keep_v5 (W6 m ρ c)).trans (b6_v5 m ρ c)
theorem b7_v7 : W7 m ρ c (Proc.devRef .tc main_v7) = Cert.ReferenceIdeal.ReadP.val_main_v75 (F := Ideal) (m ((c : Thread nD τ).loc main_arg2)) :=
  (Cert.KernelIdeal.Stretch.g1b_keep_v7 (W6 m ρ c)).trans (b6_v7 m ρ c)
theorem b7_arg5 : W7 m ρ c (Proc.devRef .tc main_arg5) = (m ((c : Thread nD τ).loc main_arg5)) :=
  (Cert.KernelIdeal.Stretch.g1b_keep_arg5 (W6 m ρ c)).trans (b6_arg5 m ρ c)
theorem b7_arg6 : W7 m ρ c (Proc.devRef .tc main_arg6) = (m ((c : Thread nD τ).loc main_arg6)) :=
  (Cert.KernelIdeal.Stretch.g1b_keep_arg6 (W6 m ρ c)).trans (b6_arg6 m ρ c)
theorem b7_arg7 : W7 m ρ c (Proc.devRef .tc main_arg7) = (m ((c : Thread nD τ).loc main_arg7)) :=
  (Cert.KernelIdeal.Stretch.g1b_keep_arg7 (W6 m ρ c)).trans (b6_arg7 m ρ c)
theorem b7_arg8 : W7 m ρ c (Proc.devRef .tc main_arg8) = (m ((c : Thread nD τ).loc main_arg8)) :=
  (Cert.KernelIdeal.Stretch.g1b_keep_arg8 (W6 m ρ c)).trans (b6_arg8 m ρ c)
theorem b7_arg9 : W7 m ρ c (Proc.devRef .tc main_arg9) = (m ((c : Thread nD τ).loc main_arg9)) :=
  (Cert.KernelIdeal.Stretch.g1b_keep_arg9 (W6 m ρ c)).trans (b6_arg9 m ρ c)
theorem b7_arg10 : W7 m ρ c (Proc.devRef .tc main_arg10) = (m ((c : Thread nD τ).loc main_arg10)) :=
  (Cert.KernelIdeal.Stretch.g1b_keep_arg10 (W6 m ρ c)).trans (b6_arg10 m ρ c)

/-! ## Region 1's exit -/

/-- Region 1 leaves the product of the rows it found with the weight matrix: its bias row is zero, and s + 0 = s. -/
theorem b8_v73 : W8 m ρ c (Proc.devRef .tc main_v73) = Cert.ReferenceIdeal.ReadP.val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W8_arr m ρ c 3).trans ?_
  refine (Cert.KernelIdeal.Layer1.result (V7 m ρ) c).trans ?_
  have e0 : V7 m ρ c main_v70 = Cert.ReferenceIdeal.ReadP.val_main_v68 (F := Ideal) (m ((c : Thread nD τ).loc main_arg0)) (m ((c : Thread nD τ).loc main_arg1)) (m ((c : Thread nD τ).loc main_arg3)) (m ((c : Thread nD τ).loc main_arg4)) := b7_v70 m ρ c
  have e1 : V7 m ρ c main_arg5 = (m ((c : Thread nD τ).loc main_arg5)) := b7_arg5 m ρ c
  have e2 : V7 m ρ c main_v72 = shapeCast S1x128 (broadcastInDim S128 ![] bcast_S_S128 (constant (F := Ideal) S_ .f32 0x00000000#32)) shapeCasts_S128_S1x128 := b7_v72 m ρ c
  rw [e0, e1, e2]
  exact Cert.Layer.affine_zero_bias _ _ _ (fun q => Cert.Sums.zero_row_read _ _ q)

theorem b8_v53 : W8 m ρ c (Proc.devRef .tc main_v53) = Cert.ReferenceIdeal.ReadP.val_main_v51 (F := Ideal) (m ((c : Thread nD τ).loc main_arg0)) (m ((c : Thread nD τ).loc main_arg1)) (m ((c : Thread nD τ).loc main_arg3)) (m ((c : Thread nD τ).loc main_arg4)) :=
  (W8_of_ne m ρ c main_v53 (by decide)).trans (b7_v53 m ρ c)
theorem b8_v1 : W8 m ρ c (Proc.devRef .tc main_v1) = Cert.ReferenceIdeal.ReadP.val_main_v1 (F := Ideal) (m ((c : Thread nD τ).loc main_arg1)) :=
  (W8_of_ne m ρ c main_v1 (by decide)).trans (b7_v1 m ρ c)
theorem b8_v3 : W8 m ρ c (Proc.devRef .tc main_v3) = Cert.ReferenceIdeal.ReadP.val_main_v3 (F := Ideal) (m ((c : Thread nD τ).loc main_arg1)) :=
  (W8_of_ne m ρ c main_v3 (by decide)).trans (b7_v3 m ρ c)
theorem b8_v5 : W8 m ρ c (Proc.devRef .tc main_v5) = Cert.ReferenceIdeal.ReadP.val_main_v72 (F := Ideal) (m ((c : Thread nD τ).loc main_arg2)) :=
  (W8_of_ne m ρ c main_v5 (by decide)).trans (b7_v5 m ρ c)
theorem b8_v7 : W8 m ρ c (Proc.devRef .tc main_v7) = Cert.ReferenceIdeal.ReadP.val_main_v75 (F := Ideal) (m ((c : Thread nD τ).loc main_arg2)) :=
  (W8_of_ne m ρ c main_v7 (by decide)).trans (b7_v7 m ρ c)
theorem b8_arg6 : W8 m ρ c (Proc.devRef .tc main_arg6) = (m ((c : Thread nD τ).loc main_arg6)) :=
  (W8_of_ne m ρ c main_arg6 (by decide)).trans (b7_arg6 m ρ c)
theorem b8_arg7 : W8 m ρ c (Proc.devRef .tc main_arg7) = (m ((c : Thread nD τ).loc main_arg7)) :=
  (W8_of_ne m ρ c main_arg7 (by decide)).trans (b7_arg7 m ρ c)
theorem b8_arg8 : W8 m ρ c (Proc.devRef .tc main_arg8) = (m ((c : Thread nD τ).loc main_arg8)) :=
  (W8_of_ne m ρ c main_arg8 (by decide)).trans (b7_arg8 m ρ c)
theorem b8_arg9 : W8 m ρ c (Proc.devRef .tc main_arg9) = (m ((c : Thread nD τ).loc main_arg9)) :=
  (W8_of_ne m ρ c main_arg9 (by decide)).trans (b7_arg9 m ρ c)
theorem b8_arg10 : W8 m ρ c (Proc.devRef .tc main_arg10) = (m ((c : Thread nD τ).loc main_arg10)) :=
  (W8_of_ne m ρ c main_arg10 (by decide)).trans (b7_arg10 m ρ c)

/-! ## Region 2's entry -/

theorem b13_v116 : W13 m ρ c (Proc.devRef .tc main_v116) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  Cert.KernelIdeal.Stretch.g2_v116 (W8 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (b8_v73 m ρ c) (b8_v5 m ρ c) (b8_v7 m ρ c) (b8_arg6 m ρ c)
theorem b13_v117 : W13 m ρ c (Proc.devRef .tc main_v117) = shapeCast S1x128 (m ((c : Thread nD τ).loc main_arg10)) shapeCasts_S128_S1x128 :=
  Cert.KernelIdeal.Stretch.g2_v117 (W8 m ρ c) (m ((c : Thread nD τ).loc main_arg10)) (b8_arg10 m ρ c)
theorem b13_v53 : W13 m ρ c (Proc.devRef .tc main_v53) = Cert.ReferenceIdeal.ReadP.val_main_v51 (F := Ideal) (m ((c : Thread nD τ).loc main_arg0)) (m ((c : Thread nD τ).loc main_arg1)) (m ((c : Thread nD τ).loc main_arg3)) (m ((c : Thread nD τ).loc main_arg4)) :=
  (Cert.KernelIdeal.Stretch.g2_keep_v53 (W8 m ρ c)).trans (b8_v53 m ρ c)
theorem b13_v1 : W13 m ρ c (Proc.devRef .tc main_v1) = Cert.ReferenceIdeal.ReadP.val_main_v1 (F := Ideal) (m ((c : Thread nD τ).loc main_arg1)) :=
  (Cert.KernelIdeal.Stretch.g2_keep_v1 (W8 m ρ c)).trans (b8_v1 m ρ c)
theorem b13_v3 : W13 m ρ c (Proc.devRef .tc main_v3) = Cert.ReferenceIdeal.ReadP.val_main_v3 (F := Ideal) (m ((c : Thread nD τ).loc main_arg1)) :=
  (Cert.KernelIdeal.Stretch.g2_keep_v3 (W8 m ρ c)).trans (b8_v3 m ρ c)
theorem b13_arg7 : W13 m ρ c (Proc.devRef .tc main_arg7) = (m ((c : Thread nD τ).loc main_arg7)) :=
  (Cert.KernelIdeal.Stretch.g2_keep_arg7 (W8 m ρ c)).trans (b8_arg7 m ρ c)
theorem b13_arg8 : W13 m ρ c (Proc.devRef .tc main_arg8) = (m ((c : Thread nD τ).loc main_arg8)) :=
  (Cert.KernelIdeal.Stretch.g2_keep_arg8 (W8 m ρ c)).trans (b8_arg8 m ρ c)
theorem b13_arg9 : W13 m ρ c (Proc.devRef .tc main_arg9) = (m ((c : Thread nD τ).loc main_arg9)) :=
  (Cert.KernelIdeal.Stretch.g2_keep_arg9 (W8 m ρ c)).trans (b8_arg9 m ρ c)

/-! ## Region 2's exit -/

/-- Region 2 leaves the bond-to-atom layer of the bond features: the bias vector as a row by a cast here, by a broadcast
    in the reference. -/
theorem b14_v118 : W14 m ρ c (Proc.devRef .tc main_v118) = Cert.ReferenceIdeal.ReadP.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  refine (W14_arr m ρ c 3).trans ?_
  refine (Cert.KernelIdeal.Layer2.result (V13 m ρ) c).trans ?_
  have e0 : V13 m ρ c main_v116 = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := b13_v116 m ρ c
  have e1 : V13 m ρ c main_arg9 = (m ((c : Thread nD τ).loc main_arg9)) := b13_arg9 m ρ c
  have e2 : V13 m ρ c main_v117 = shapeCast S1x128 (m ((c : Thread nD τ).loc main_arg10)) shapeCasts_S128_S1x128 := b13_v117 m ρ c
  rw [e0, e1, e2, Cert.Lib.BiasRelu.rowOfVec_cast_eq_bcast (m ((c : Thread nD τ).loc main_arg10)) shapeCasts_S128_S1x128 bcast_S128_S1x128_1]
  exact (Cert.Layer.host_affine _ _ _ bcast_S1x128_S640000x128_0_1).symm
theorem b14_v53 : W14 m ρ c (Proc.devRef .tc main_v53) = Cert.ReferenceIdeal.ReadP.val_main_v51 (F := Ideal) (m ((c : Thread nD τ).loc main_arg0)) (m ((c : Thread nD τ).loc main_arg1)) (m ((c : Thread nD τ).loc main_arg3)) (m ((c : Thread nD τ).loc main_arg4)) :=
  (W14_of_ne m ρ c main_v53 (by decide)).trans (b13_v53 m ρ c)
/-- The region's row operand is one of its arrays: an input window's array is left as the region found it. -/
theorem b14_v116 : W14 m ρ c (Proc.devRef .tc main_v116) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W14_arr m ρ c 0).trans (((dat2 (V13 m ρ) c).arrAt_in 0 rfl _).trans (A_eq2 (V13 m ρ) c 0))).trans (b13_v116 m ρ c)
theorem b14_v1 : W14 m ρ c (Proc.devRef .tc main_v1) = Cert.ReferenceIdeal.ReadP.val_main_v1 (F := Ideal) (m ((c : Thread nD τ).loc main_arg1)) :=
  (W14_of_ne m ρ c main_v1 (by decide)).trans (b13_v1 m ρ c)
theorem b14_v3 : W14 m ρ c (Proc.devRef .tc main_v3) = Cert.ReferenceIdeal.ReadP.val_main_v3 (F := Ideal) (m ((c : Thread nD τ).loc main_arg1)) :=
  (W14_of_ne m ρ c main_v3 (by decide)).trans (b13_v3 m ρ c)
theorem b14_arg7 : W14 m ρ c (Proc.devRef .tc main_arg7) = (m ((c : Thread nD τ).loc main_arg7)) :=
  (W14_of_ne m ρ c main_arg7 (by decide)).trans (b13_arg7 m ρ c)
theorem b14_arg8 : W14 m ρ c (Proc.devRef .tc main_arg8) = (m ((c : Thread nD τ).loc main_arg8)) :=
  (W14_of_ne m ρ c main_arg8 (by decide)).trans (b13_arg8 m ρ c)

/-! ## Region 3's entry -/

theorem b15_v126 : W15 m ρ c (Proc.devRef .tc main_v126) = Cert.ReferenceIdeal.ReadP.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  Cert.KernelIdeal.Stretch.g3_v126 (W14 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (b14_v53 m ρ c) (b14_v118 m ρ c) (b14_v1 m ρ c) (b14_v3 m ρ c)
theorem b15_v127 : W15 m ρ c (Proc.devRef .tc main_v127) = shapeCast S1x128 (m ((c : Thread nD τ).loc main_arg8)) shapeCasts_S128_S1x128 :=
  Cert.KernelIdeal.Stretch.g3_v127 (W14 m ρ c) (m ((c : Thread nD τ).loc main_arg8)) (b14_arg8 m ρ c)
theorem b15_v116 : W15 m ρ c (Proc.devRef .tc main_v116) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (Cert.KernelIdeal.Stretch.g3_keep_v116 (W14 m ρ c)).trans (b14_v116 m ρ c)
theorem b15_v1 : W15 m ρ c (Proc.devRef .tc main_v1) = Cert.ReferenceIdeal.ReadP.val_main_v1 (F := Ideal) (m ((c : Thread nD τ).loc main_arg1)) :=
  (Cert.KernelIdeal.Stretch.g3_keep_v1 (W14 m ρ c)).trans (b14_v1 m ρ c)
theorem b15_v3 : W15 m ρ c (Proc.devRef .tc main_v3) = Cert.ReferenceIdeal.ReadP.val_main_v3 (F := Ideal) (m ((c : Thread nD τ).loc main_arg1)) :=
  (Cert.KernelIdeal.Stretch.g3_keep_v3 (W14 m ρ c)).trans (b14_v3 m ρ c)
theorem b15_arg7 : W15 m ρ c (Proc.devRef .tc main_arg7) = (m ((c : Thread nD τ).loc main_arg7)) :=
  (Cert.KernelIdeal.Stretch.g3_keep_arg7 (W14 m ρ c)).trans (b14_arg7 m ρ c)

/-! ## Region 3's exit -/

/-- Region 3 leaves the atom-to-bond layer of the updated atom features, bounded below by zero. -/
theorem b16_v128 : W16 m ρ c (Proc.devRef .tc main_v128) = Cert.ReferenceIdeal.ReadP.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W16_arr m ρ c 3).trans ?_
  refine (Cert.KernelIdeal.Layer3.result (V15 m ρ) c).trans ?_
  have e0 : V15 m ρ c main_v126 = Cert.ReferenceIdeal.ReadP.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := b15_v126 m ρ c
  have e1 : V15 m ρ c main_arg7 = (m ((c : Thread nD τ).loc main_arg7)) := b15_arg7 m ρ c
  have e2 : V15 m ρ c main_v127 = shapeCast S1x128 (m ((c : Thread nD τ).loc main_arg8)) shapeCasts_S128_S1x128 := b15_v127 m ρ c
  rw [e0, e1, e2, Cert.Lib.BiasRelu.rowOfVec_cast_eq_bcast (m ((c : Thread nD τ).loc main_arg8)) shapeCasts_S128_S1x128 bcast_S128_S1x128_1]
  exact (Cert.Layer.host_affineFloor _ _ _ (constant (F := Ideal) S_ .f32 0x00000000#32) bcast_S1x128_S20000x128_0_1 bcast_S_S20000x128).symm
theorem b16_v116 : W16 m ρ c (Proc.devRef .tc main_v116) = Cert.ReferenceIdeal.ReadP.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W16_of_ne m ρ c main_v116 (by decide)).trans (b15_v116 m ρ c)
/-- The region's row operand is one of its arrays: an input window's array is left as the region found it. -/
theorem b16_v126 : W16 m ρ c (Proc.devRef .tc main_v126) = Cert.ReferenceIdeal.ReadP.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  ((W16_arr m ρ c 0).trans (((dat3 (V15 m ρ) c).arrAt_in 0 rfl _).trans (A_eq3 (V15 m ρ) c 0))).trans (b15_v126 m ρ c)
theorem b16_v1 : W16 m ρ c (Proc.devRef .tc main_v1) = Cert.ReferenceIdeal.ReadP.val_main_v1 (F := Ideal) (m ((c : Thread nD τ).loc main_arg1)) :=
  (W16_of_ne m ρ c main_v1 (by decide)).trans (b15_v1 m ρ c)
theorem b16_v3 : W16 m ρ c (Proc.devRef .tc main_v3) = Cert.ReferenceIdeal.ReadP.val_main_v3 (F := Ideal) (m ((c : Thread nD τ).loc main_arg1)) :=
  (W16_of_ne m ρ c main_v3 (by decide)).trans (b15_v3 m ρ c)

/-! ## The return -/

/-- The second result: the bond features plus half the sum of the two endpoint atoms' messages. -/
theorem bonds : W17 m ρ c (Proc.devRef .tc main_v146) = Cert.ReferenceIdeal.ReadP.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  Cert.KernelIdeal.Stretch.g4_v146 (W16 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (b16_v116 m ρ c) (b16_v128 m ρ c) (b16_v1 m ρ c) (b16_v3 m ρ c)

/-- The first result: the updated atom features, kept through region 3 and the last stretch. -/
theorem atoms : W17 m ρ c (Proc.devRef .tc main_v126) = Cert.ReferenceIdeal.ReadP.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) :=
  (Cert.KernelIdeal.Stretch.g4_keep_v126 (W16 m ρ c)).trans (b16_v126 m ρ c)

end Cert.KernelIdeal.Boundary

end
-- ==== Proof.lean ====
/- The certificate of one message-passing layer over a molecular graph and its line graph, the kernel program against
   its reference, at the ideal float instance (a float is an extended real, every operation exact, a change of format
   the identity).

   Both programs compute, from atom features x, the atom graph's edges and the line graph's edges:
     x₁ = max (D⁻¹ᐟ² (A + I) D⁻¹ᐟ² (x · W_atom) + b_atom, 0)          the atom convolution (a gather, a scaling, a scatter-add)
     e₀ = (x₁[row] + x₁[col]) / 2,   e₁ = max (the same convolution of e₀ · W_bond on the line graph + b_bond, 0)
     x₂ = x₁ + Σ_{row} (e₁ · W_b2a + b_b2a) + Σ_{col} (e₁ · W_b2a + b_b2a)
     e₂ = e₁ + (a[row] + a[col]) / 2   with   a = max (x₂ · W_a2b + b_a2b, 0)
   and return (x₂, e₂). The reference does all of it on the host. The kernel program does the gathers, scatters and
   pointwise steps with the same host operations and the four matrix products in four pipelined regions, each over
   blocks of rows: a block of X times W into a zero matrix, plus a bias row, in the last region bounded below by zero.
   At the ideal instance a region therefore leaves X · W + b row by row, whatever the blocking (Layer0 … Layer3); the
   first two regions are given a zero bias row and s + 0 = s, so they leave the host's product; the other two are given
   the bias vector as a row, which is the row the reference broadcasts. The only other difference is the grouping of
   the atom update, (x₁ + s₁) + s₂ against x₁ + (s₁ + s₂), and addition of extended reals is associative. No step needs
   the inputs to be finite, so the precondition is never opened.

   The three frames: the kernel programs' are the generated ones; the reference's is its run with the results dropped.
   The idealization rewrote nothing, so the fourth conjunct is trivial. The fifth puts the kernel program's run with its
   results named (KernelResults, Boundaries) beside the reference's run, read one stage at a time. -/
import proofs.«130927_j36593121362364_2_alg».proof.Defs
import proofs.«130927_j36593121362364_2_alg».proof.Proof.Gen.Kernel
import proofs.«130927_j36593121362364_2_alg».proof.Proof.Gen.Kernel.Skeleton
import proofs.«130927_j36593121362364_2_alg».proof.Proof.Gen.Kernel.Launch
import proofs.«130927_j36593121362364_2_alg».proof.Proof.Gen.Kernel.Points
import proofs.«130927_j36593121362364_2_alg».proof.Proof.Gen.Kernel.Frame
import proofs.«130927_j36593121362364_2_alg».proof.Proof.Gen.KernelIdeal
import proofs.«130927_j36593121362364_2_alg».proof.Proof.Gen.KernelIdeal.Skeleton
import proofs.«130927_j36593121362364_2_alg».proof.Proof.Gen.KernelIdeal.Launch
import proofs.«130927_j36593121362364_2_alg».proof.Proof.Gen.KernelIdeal.Points
import proofs.«130927_j36593121362364_2_alg».proof.Proof.Gen.KernelIdeal.Frame
import proofs.«130927_j36593121362364_2_alg».proof.Proof.Gen.ReferenceIdeal
import proofs.«130927_j36593121362364_2_alg».proof.Proof.Gen.Pre_finite_inputs
import proofs.«130927_j36593121362364_2_alg».proof.Proof.ReferenceRun
import proofs.«130927_j36593121362364_2_alg».proof.Proof.ReferenceRead
import proofs.«130927_j36593121362364_2_alg».proof.Proof.KernelResults
import proofs.«130927_j36593121362364_2_alg».proof.Proof.Boundaries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both runs end with the atoms at x₂ and the bonds at e₂ of the arguments: the kernel program's results are the
    reference's stages of its own arguments (Boundaries), the reference's results are those stages of its arguments,
    and the arguments agree. -/
theorem algebraic : Cert.algebraic_KernelIdeal_ReferenceIdeal := by
  intro m ρ m' ρ' _ hagree
  refine ⟨fun c => Cert.KernelIdeal.Gen.W17 m ρ c (Proc.devRef .tc Cert.KernelIdeal.main_v126),
    fun c => Cert.KernelIdeal.Gen.W17 m ρ c (Proc.devRef .tc Cert.KernelIdeal.main_v146),
    Cert.KernelIdeal.Results.run m ρ, ?_⟩
  refine (θ_run Cert.ReferenceIdeal.defs _ _).mono (fun _ h c => ?_) (Cert.ReferenceIdeal.ValueP.run (F := Ideal) m' ρ')
  obtain ⟨a0, a1, a2, a3, a4, a5, a6, a7, a8, a9, a10⟩ := hagree c
  refine ⟨(h c).1.trans ?_, (h c).2.1.trans ?_, (h c).2.2⟩
  · rw [Cert.ReferenceIdeal.ReadP.val_main_v128_eq, a0, a1, a2, a3, a4, a5, a6, a9, a10]
    exact (Cert.KernelIdeal.Boundary.atoms m ρ c).symm
  · rw [Cert.ReferenceIdeal.ReadP.val_main_v151_eq, a0, a1, a2, a3, a4, a5, a6, a7, a8, a9, a10]
    exact (Cert.KernelIdeal.Boundary.bonds m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
